-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 123
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .f32⟩
  | .hbm, ⟨97, _⟩ => ⟨S1700000x1, .f32⟩
  | .hbm, ⟨98, _⟩ => ⟨S1700000x64, .f32⟩
  | .hbm, ⟨99, _⟩ => ⟨S1700000x64, .f32⟩
  | .hbm, ⟨100, _⟩ => ⟨S_, .f32⟩
  | .hbm, ⟨101, _⟩ => ⟨S100000x64, .f32⟩
  | .hbm, ⟨102, _⟩ => ⟨S1700000x1, .i32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S64, .f32⟩
  | .local _ .vmem, ⟨38, _⟩ => ⟨S10000x64, .f32⟩
  | .local _ .vmem, ⟨39, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64.size a ≤ S64.size a
  hwx7_1 : ∀ i : grid7.Coords, EltTy.bits .f32 = 32 ∨ (Rect.block (s := S64) S64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 173
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S1700000x1, .f32⟩
  | 52 => ⟨S100000x64, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .i1⟩
  | 74 => ⟨S_, .f32⟩
  | 75 => ⟨S100000x64, .f32⟩
  | 76 => ⟨S100000x64, .i1⟩
  | 77 => ⟨S_, .f32⟩
  | 78 => ⟨S_, .f32⟩
  | 79 => ⟨S100000x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S100000x64, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x64, .f32⟩
  | 97 => ⟨S1700000x64, .f32⟩
  | 98 => ⟨S_, .f32⟩
  | 99 => ⟨S100000x64, .f32⟩
  | 100 => ⟨S1700000x1, .i32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .i1⟩
  | 108 => ⟨S_, .f32⟩
  | 109 => ⟨S100000x64, .f32⟩
  | 110 => ⟨S100000x64, .i1⟩
  | 111 => ⟨S_, .f32⟩
  | 112 => ⟨S_, .f32⟩
  | 113 => ⟨S100000x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S100000x64, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x64, .f32⟩

abbrev hbmTy0_1 (i : Nat) : BufTy := match i % 128 with
  | 0 => ⟨S1700000x1, .i32⟩
  | 1 => ⟨S1700000x64, .f32⟩
  | 2 => ⟨S1700000x64, .f32⟩
  | 3 => ⟨S1700000x64, .f32⟩
  | 4 => ⟨S_, .f32⟩
  | 5 => ⟨S100000x64, .f32⟩
  | 6 => ⟨S1700000x1, .i32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .i1⟩
  | 14 => ⟨S_, .f32⟩
  | 15 => ⟨S100000x64, .f32⟩
  | 16 => ⟨S100000x64, .i1⟩
  | 17 => ⟨S_, .f32⟩
  | 18 => ⟨S_, .f32⟩
  | 19 => ⟨S100000x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S100000x64, .f32⟩
  | 26 => ⟨S100000x64, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000x64, .f32⟩
  | 36 => ⟨S1700000x64, .f32⟩
  | 37 => ⟨S1700000x64, .f32⟩
  | 38 => ⟨S_, .f32⟩
  | 39 => ⟨S100000x64, .f32⟩
  | 40 => ⟨S1700000x1, .i32⟩
  | 41 => ⟨S100000x64, .f32⟩
  | 42 => ⟨S1x64, .f32⟩
  | 43 => ⟨S100000x64, .f32⟩
  | 44 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_cst_1 : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_v4 : Ref sig .tc := ⟨.hbm, 80, rfl⟩
abbrev main_call1_v5 : Ref sig .tc := ⟨.hbm, 81, rfl⟩
abbrev main_call1_cst_2 : Ref sig .tc := ⟨.hbm, 82, rfl⟩
abbrev main_call1_v6 : Ref sig .tc := ⟨.hbm, 83, rfl⟩
abbrev main_call1_v7 : Ref sig .tc := ⟨.hbm, 84, rfl⟩
abbrev main_v47 : Ref sig .tc := ⟨.hbm, 85, rfl⟩
abbrev main_v48 : Ref sig .tc := ⟨.hbm, 86, rfl⟩
abbrev main_c_9 : Ref sig .tc := ⟨.hbm, 87, rfl⟩
abbrev main_v49 : Ref sig .tc := ⟨.hbm, 88, rfl⟩
abbrev main_v50 : Ref sig .tc := ⟨.hbm, 89, rfl⟩
abbrev main_c_10 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_11 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_cst_1 : Ref sig .tc := ⟨.hbm, 111, rfl⟩
abbrev main_call2_call0_v0 : Ref sig .tc := ⟨.hbm, 112, rfl⟩
abbrev main_call2_call0_v1 : Ref sig .tc := ⟨.hbm, 113, rfl⟩
abbrev main_call2_v4 : Ref sig .tc := ⟨.hbm, 114, rfl⟩
abbrev main_call2_v5 : Ref sig .tc := ⟨.hbm, 115, rfl⟩
abbrev main_call2_cst_2 : Ref sig .tc := ⟨.hbm, 116, rfl⟩
abbrev main_call2_v6 : Ref sig .tc := ⟨.hbm, 117, rfl⟩
abbrev main_call2_v7 : Ref sig .tc := ⟨.hbm, 118, rfl⟩
abbrev main_v64 : Ref sig .tc := ⟨.hbm, 119, rfl⟩
abbrev main_v65 : Ref sig .tc := ⟨.hbm, 120, rfl⟩
abbrev main_c_12 : Ref sig .tc := ⟨.hbm, 121, rfl⟩
abbrev main_v66 : Ref sig .tc := ⟨.hbm, 122, rfl⟩
abbrev main_v67 : Ref sig .tc := ⟨.hbm, 123, rfl⟩
abbrev main_c_13 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_cst_14 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_call3_cst : Ref sig .tc := ⟨.hbm, 139, rfl⟩
abbrev main_call3_v0 : Ref sig .tc := ⟨.hbm, 140, rfl⟩
abbrev main_call3_v1 : Ref sig .tc := ⟨.hbm, 141, rfl⟩
abbrev main_call3_cst_0 : Ref sig .tc := ⟨.hbm, 142, rfl⟩
abbrev main_call3_v2 : Ref sig .tc := ⟨.hbm, 143, rfl⟩
abbrev main_call3_v3 : Ref sig .tc := ⟨.hbm, 144, rfl⟩
abbrev main_call3_cst_1 : Ref sig .tc := ⟨.hbm, 145, rfl⟩
abbrev main_call3_call0_v0 : Ref sig .tc := ⟨.hbm, 146, rfl⟩
abbrev main_call3_call0_v1 : Ref sig .tc := ⟨.hbm, 147, rfl⟩
abbrev main_call3_v4 : Ref sig .tc := ⟨.hbm, 148, rfl⟩
abbrev main_call3_v5 : Ref sig .tc := ⟨.hbm, 149, rfl⟩
abbrev main_call3_cst_2 : Ref sig .tc := ⟨.hbm, 150, rfl⟩
abbrev main_call3_v6 : Ref sig .tc := ⟨.hbm, 151, rfl⟩
abbrev main_call3_v7 : Ref sig .tc := ⟨.hbm, 152, rfl⟩
abbrev main_v81 : Ref sig .tc := ⟨.hbm, 153, rfl⟩
abbrev main_v82 : Ref sig .tc := ⟨.hbm, 154, rfl⟩
abbrev main_c_15 : Ref sig .tc := ⟨.hbm, 155, rfl⟩
abbrev main_v83 : Ref sig .tc := ⟨.hbm, 156, rfl⟩
abbrev main_v84 : Ref sig .tc := ⟨.hbm, 157, rfl⟩
abbrev main_c_16 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_cst_17 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  The program is fifteen segments: stretches of host operations and eight kernel regions. The frame certificate
  follows every unscoped buffer through them: after the last segment each holds what the fold of the segments leaves
  there (the contents called W15 below: a host stretch applies its operations, a region replaces its output array
  by what its grid points wrote back and leaves everything else). Read at the eleven argument arrays this gives
  "the arguments end as launched"; read also at the result array it gives the result as W15's value there, which the
  modules after this one compute.
-/
import proofs.«160761_j24318104830697_1_alg».proof.Proof.Gen.KernelIdeal.Frame

set_option maxRecDepth 16384

noncomputable section

namespace Cert.Gcn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents, and the argument arrays end as launched. -/
theorem run_value : θ_run defs (onTc (τ := τ) (main (F := F))) ⟨m, fun _ => 0, ρ⟩ (fun r => ∀ c : Dev nD,
      r.2.mem ((c.tc : Thread nD τ).loc main_v89) = W15 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v89 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.Gcn.KRun

end
-- ==== Proof.Spec.lean ====
/-
  The mathematics of this certificate, stated once and with no program in sight.

  A four-layer graph convolution on N = 100000 nodes with 64 features. The edge list e : [2, 1600000] gives
  sources (row 0) and targets (row 1); every node also gets a self loop, so there are M = 1700000 edges. With
  deg(v) the number of edges into v and dis(v) = deg(v)^(-1/2) (0 where deg(v) = 0), edge k carries the weight
  nrm(k) = dis(src k) · dis(dst k). One layer sends h to

      conv(h, W, b)(v, j) = ( Σ over edges k into v of  (h·W)(src k, j) · nrm(k) ) + b(j)

  and the network is conv ∘ elu ∘ conv ∘ elu ∘ conv ∘ elu ∘ conv, with elu(t) = t for t > 0 and e^t − 1 otherwise.
  Everything is read on the extended reals: a float is the real (or ±∞) it denotes and each operation is exact.

  Both programs compute the edge endpoints, the weights and the per-layer gather · scale · scatter-add with the
  same host operations, so those are kept here as the operations themselves (`src`, `dst`, `nrm`, `agg`) and are
  never opened. The two places where the programs differ are the matrix product `lin` and the bias and activation
  `bias`, `elu`, which are stated here in the reference's spelling.
-/
import proofs.«160761_j24318104830697_1_alg».proof.ReferenceIdeal
import Idealize.ShloMosaic.PureOps.Ideal

noncomputable section

namespace Cert.Gcn

open Idealize.ShloMosaic Cert.ReferenceIdeal

variable [hR : Cert.ReferenceIdeal.Facts]
open Cert.ReferenceIdeal.Facts₀

/-- Node features [100000, 64]. -/
abbrev Mat := FVec Ideal S100000x64 .f32
/-- A weight matrix [64, 64]. -/
abbrev Wt := FVec Ideal S64x64 .f32
/-- A bias vector [64]. -/
abbrev Bv := FVec Ideal S64 .f32
/-- The edge list [2, 1600000]. -/
abbrev Edges := IVec S2x1600000 32
/-- One endpoint per edge, self loops included [1700000]. -/
abbrev EIdx := IVec S1700000 32
/-- One weight per edge [1700000]. -/
abbrev ENorm := FVec Ideal S1700000 .f32
/-- One value per node [100000]. -/
abbrev NodeV := FVec Ideal S100000 .f32

/-- The sources: row 0 of the edge list followed by 0 … N−1 (the self loops). -/
def src (e : Edges) : EIdx :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The targets: row 1 of the edge list followed by 0 … N−1. -/
def dst (e : Edges) : EIdx :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- An index column for a gather: a negative index counts from the end (i + N). -/
def wrap (i : EIdx) : IVec S1700000x1 32 :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The index column of a scatter: the targets as they are. -/
def col (d : EIdx) : IVec S1700000x1 32 :=
  broadcastInDim S1700000x1 ![0] bcast_S1700000_S1700000x1_0 d

/-- deg(v): one unit added per edge into v. -/
def deg (d : EIdx) : NodeV :=
  Host.scatterAdd (F := Ideal) scatter_S100000_S1700000x1_S1700000_n_0_0_1
    (broadcastInDim S100000 ![] bcast_S_S100000 (constant (F := Ideal) S_ .f32 0x00000000#32)) (col d)
    (broadcastInDim S1700000 ![] bcast_S_S1700000 (constant (F := Ideal) S_ .f32 0x3F800000#32))

/-- dis(v) = deg(v)^(-1/2) where deg(v) > 0, and 0 elsewhere. -/
def dis (g : NodeV) : NodeV :=
  select (cmpf .ogt g (broadcastInDim S100000 ![] bcast_S_S100000 (constant (F := Ideal) S_ .f32 0x00000000#32)))
    (Host.rsqrt (F := Ideal) g)
    (broadcastInDim S100000 ![] bcast_S_S100000 (id (constant (F := Ideal) S_ .f32 0x00000000#32)))

/-- nrm(k) = dis(src k) · dis(dst k). -/
def nrm (s d : EIdx) : ENorm :=
  mulf (Host.gather gather_S100000_S1700000x1_S1700000_n_0_n_n_0_1_1 (dis (deg d)) (wrap s))
       (Host.gather gather_S100000_S1700000x1_S1700000_n_0_n_n_0_1_1 (dis (deg d)) (wrap d))

/-- The aggregation of one layer: row src(k) of h scaled by nrm(k), added into row dst(k) of a zero matrix. -/
def agg (s d : EIdx) (n : ENorm) (h : Mat) : Mat :=
  Host.scatterAdd (F := Ideal) scatter_S100000x64_S1700000x1_S1700000x64_1_0_0_1
    (broadcastInDim S100000x64 ![] bcast_S_S100000x64 (constant (F := Ideal) S_ .f32 0x00000000#32)) (col d)
    (mulf (Host.gather gather_S100000x64_S1700000x1_S1700000x64_1_0_n_n_0_1_164 h (wrap s))
          (broadcastInDim S1700000x64 ![0, 1] bcast_S1700000x1_S1700000x64_0_1
            (broadcastInDim S1700000x1 ![0] bcast_S1700000_S1700000x1_0 n)))

/-- The matrix product h · W. -/
def lin (h : Mat) (w : Wt) : Mat :=
  Host.dotGeneral (F := Ideal) dot_S100000x64_S64x64_S100000x64_1_0_0_1_n_n none h w

/-- a + b, the vector b added to every row. -/
def bias (a : Mat) (b : Bv) : Mat :=
  addf a (broadcastInDim S100000x64 ![0, 1] bcast_S1x64_S100000x64_0_1 (broadcastInDim S1x64 ![1] bcast_S64_S1x64_1 b))

/-- The zero matrix of the comparison in `elu`. -/
def zeros : Mat := broadcastInDim S100000x64 ![] bcast_S_S100000x64 (constant (F := Ideal) S_ .f32 0x00000000#32)

/-- elu as the reference spells it: where a > 0 the entry itself, elsewhere 1 · (e^t − 1) at t = (0 where a > 0, else a). -/
def elu (a : Mat) : Mat :=
  select (cmpf .ogt a zeros) a
    (mulf (broadcastInDim S100000x64 ![] bcast_S_S100000x64 (constant (F := Ideal) S_ .f32 0x3F800000#32))
      (Host.expm1 (F := Ideal)
        (select (cmpf .ogt a zeros)
          (broadcastInDim S100000x64 ![] bcast_S_S100000x64 (id (constant (F := Ideal) S_ .f32 0x00000000#32))) a)))

/-- One layer before its activation. -/
def conv (s d : EIdx) (n : ENorm) (h : Mat) (w : Wt) (b : Bv) : Mat := bias (agg s d n (lin h w)) b

/-- The network's result as one function of the argument arrays. -/
def out (x : Mat) (e : Edges) (w1 : Wt) (b1 : Bv) (w2 : Wt) (b2 : Bv) (w3 : Wt) (b3 : Bv) (w4 : Wt) (b4 : Bv) : Mat :=
  conv (src e) (dst e) (nrm (src e) (dst e))
    (elu (conv (src e) (dst e) (nrm (src e) (dst e))
      (elu (conv (src e) (dst e) (nrm (src e) (dst e))
        (elu (conv (src e) (dst e) (nrm (src e) (dst e)) x w1 b1)) w2 b2)) w3 b3)) w4 b4

end Cert.Gcn

end
-- ==== Proof.KernelKeep.lean ====
/-
  What each segment of the idealized kernel's program leaves unchanged.

  A stretch of host operations changes only the buffers its operations write; a kernel region changes only its three
  arrays. So the edge endpoints, the edge weights and the weight and bias arguments, each computed (or launched) once,
  are still there when a later stretch or region reads them. This module lists, per stretch, the buffers it writes, and
  carries each value that is read later from the boundary where it is read back to the boundary where it was made
  (boundary 3, the entry of the first region, for the endpoints and the edge weights; the launch for the arguments).
-/
import proofs.«160761_j24318104830697_1_alg».proof.Proof.Gen.KernelIdeal.Frame

set_option maxRecDepth 16384

noncomputable section

namespace Cert.Gcn.KKeep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## The buffers each stretch writes -/

/-- The buffers the operations of stretch 0 write. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem wr0_writes : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 0 does not write holds after it what it held before. -/
theorem keep0 (c : Dev nD) (r : Ref sig .tc) (h : r ∉ wr0) : W1 m ρ c (Proc.devRef .tc r) = W0 m ρ c (Proc.devRef .tc r) :=
  StableHlo.after_of_writes_sub hostOps0 _ wr0_writes h

/-- The buffers the operations of stretch 0_1 write. -/
abbrev wr0_1 : List (Ref sig .tc) := [main_call0_v0, main_call0_v1, main_v14]
theorem wr0_1_writes : (hostOps0_1 : List (HloOp τ sig (Elt F))).Forall fun op => op.writes ⊆ (wr0_1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 0_1 does not write holds after it what it held before. -/
theorem keep0_1 (c : Dev nD) (r : Ref sig .tc) (h : r ∉ wr0_1) : W2 m ρ c (Proc.devRef .tc r) = W1 m ρ c (Proc.devRef .tc r) :=
  StableHlo.after_of_writes_sub hostOps0_1 _ wr0_1_writes h

/-- The buffers the operations of stretch 0_2 write. -/
abbrev wr0_2 : List (Ref sig .tc) := [main_c, main_v15, main_v16, main_c_3, main_v17, main_v18, main_v19, main_v20, main_v21, main_c_4, main_v22, main_v23, main_c_5, main_v24, main_v25, main_v26, main_v27, main_v28, main_v29]
theorem wr0_2_writes : (hostOps0_2 : List (HloOp τ sig (Elt F))).Forall fun op => op.writes ⊆ (wr0_2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 0_2 does not write holds after it what it held before. -/
theorem keep0_2 (c : Dev nD) (r : Ref sig .tc) (h : r ∉ wr0_2) : W3 m ρ c (Proc.devRef .tc r) = W2 m ρ c (Proc.devRef .tc r) :=
  StableHlo.after_of_writes_sub hostOps0_2 _ wr0_2_writes h

/-- The buffers the operations of stretch 1 write. -/
abbrev wr1 : List (Ref sig .tc) := [main_c_6, main_v31, main_v32, main_c_7, main_v33, main_v34, main_v35, main_v36, main_v37, main_v38, main_v39, main_v40, main_cst_8, main_v41, main_v42, main_v43]
theorem wr1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 1 does not write holds after it what it held before. -/
theorem keep1 (c : Dev nD) (r : Ref sig .tc) (h : r ∉ wr1) : W5 m ρ c (Proc.devRef .tc r) = W4 m ρ c (Proc.devRef .tc r) :=
  StableHlo.after_of_writes_sub hostOps1 _ wr1_writes h

/-- The buffers the operations of stretch 3 write. -/
abbrev wr3 : List (Ref sig .tc) := [main_c_9, main_v46, main_v47, main_c_10, main_v48, main_v49, main_v50, main_v51, main_v52, main_v53, main_v54, main_v55, main_cst_11, main_v56, main_v57, main_v58]
theorem wr3_writes : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 3 does not write holds after it what it held before. -/
theorem keep3 (c : Dev nD) (r : Ref sig .tc) (h : r ∉ wr3) : W8 m ρ c (Proc.devRef .tc r) = W7 m ρ c (Proc.devRef .tc r) :=
  StableHlo.after_of_writes_sub hostOps3 _ wr3_writes h

/-- The buffers the operations of stretch 5 write. -/
abbrev wr5 : List (Ref sig .tc) := [main_c_12, main_v61, main_v62, main_c_13, main_v63, main_v64, main_v65, main_v66, main_v67, main_v68, main_v69, main_v70, main_cst_14, main_v71, main_v72, main_v73]
theorem wr5_writes : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 5 does not write holds after it what it held before. -/
theorem keep5 (c : Dev nD) (r : Ref sig .tc) (h : r ∉ wr5) : W11 m ρ c (Proc.devRef .tc r) = W10 m ρ c (Proc.devRef .tc r) :=
  StableHlo.after_of_writes_sub hostOps5 _ wr5_writes h

/-- The buffers the operations of stretch 7 write. -/
abbrev wr7 : List (Ref sig .tc) := [main_c_15, main_v76, main_v77, main_c_16, main_v78, main_v79, main_v80, main_v81, main_v82, main_v83, main_v84, main_v85, main_cst_17, main_v86, main_v87, main_v88]
theorem wr7_writes : (hostOps7 : List (HloOp τ sig (Elt F))).Forall fun op => op.writes ⊆ (wr7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 7 does not write holds after it what it held before. -/
theorem keep7 (c : Dev nD) (r : Ref sig .tc) (h : r ∉ wr7) : W14 m ρ c (Proc.devRef .tc r) = W13 m ρ c (Proc.devRef .tc r) :=
  StableHlo.after_of_writes_sub hostOps7 _ wr7_writes h

/-! ## The endpoints and the edge weights, at the entry of each later stretch, are those of boundary 3 -/
theorem v3_at4 (c : Dev nD) : W4 m ρ c (Proc.devRef .tc main_v3) = W3 m ρ c (Proc.devRef .tc main_v3) :=
  W4_of_ne m ρ c main_v3 (by decide)
theorem v3_at7 (c : Dev nD) : W7 m ρ c (Proc.devRef .tc main_v3) = W3 m ρ c (Proc.devRef .tc main_v3) :=
  (W7_of_ne m ρ c main_v3 (by decide)).trans ((W6_of_ne m ρ c main_v3 (by decide)).trans ((keep1 m ρ c main_v3 (by decide)).trans (W4_of_ne m ρ c main_v3 (by decide))))
theorem v3_at10 (c : Dev nD) : W10 m ρ c (Proc.devRef .tc main_v3) = W3 m ρ c (Proc.devRef .tc main_v3) :=
  (W10_of_ne m ρ c main_v3 (by decide)).trans ((W9_of_ne m ρ c main_v3 (by decide)).trans ((keep3 m ρ c main_v3 (by decide)).trans ((W7_of_ne m ρ c main_v3 (by decide)).trans ((W6_of_ne m ρ c main_v3 (by decide)).trans ((keep1 m ρ c main_v3 (by decide)).trans (W4_of_ne m ρ c main_v3 (by decide)))))))
theorem v3_at13 (c : Dev nD) : W13 m ρ c (Proc.devRef .tc main_v3) = W3 m ρ c (Proc.devRef .tc main_v3) :=
  (W13_of_ne m ρ c main_v3 (by decide)).trans ((W12_of_ne m ρ c main_v3 (by decide)).trans ((keep5 m ρ c main_v3 (by decide)).trans ((W10_of_ne m ρ c main_v3 (by decide)).trans ((W9_of_ne m ρ c main_v3 (by decide)).trans ((keep3 m ρ c main_v3 (by decide)).trans ((W7_of_ne m ρ c main_v3 (by decide)).trans ((W6_of_ne m ρ c main_v3 (by decide)).trans ((keep1 m ρ c main_v3 (by decide)).trans (W4_of_ne m ρ c main_v3 (by decide))))))))))
theorem v6_at4 (c : Dev nD) : W4 m ρ c (Proc.devRef .tc main_v6) = W3 m ρ c (Proc.devRef .tc main_v6) :=
  W4_of_ne m ρ c main_v6 (by decide)
theorem v6_at7 (c : Dev nD) : W7 m ρ c (Proc.devRef .tc main_v6) = W3 m ρ c (Proc.devRef .tc main_v6) :=
  (W7_of_ne m ρ c main_v6 (by decide)).trans ((W6_of_ne m ρ c main_v6 (by decide)).trans ((keep1 m ρ c main_v6 (by decide)).trans (W4_of_ne m ρ c main_v6 (by decide))))
theorem v6_at10 (c : Dev nD) : W10 m ρ c (Proc.devRef .tc main_v6) = W3 m ρ c (Proc.devRef .tc main_v6) :=
  (W10_of_ne m ρ c main_v6 (by decide)).trans ((W9_of_ne m ρ c main_v6 (by decide)).trans ((keep3 m ρ c main_v6 (by decide)).trans ((W7_of_ne m ρ c main_v6 (by decide)).trans ((W6_of_ne m ρ c main_v6 (by decide)).trans ((keep1 m ρ c main_v6 (by decide)).trans (W4_of_ne m ρ c main_v6 (by decide)))))))
theorem v6_at13 (c : Dev nD) : W13 m ρ c (Proc.devRef .tc main_v6) = W3 m ρ c (Proc.devRef .tc main_v6) :=
  (W13_of_ne m ρ c main_v6 (by decide)).trans ((W12_of_ne m ρ c main_v6 (by decide)).trans ((keep5 m ρ c main_v6 (by decide)).trans ((W10_of_ne m ρ c main_v6 (by decide)).trans ((W9_of_ne m ρ c main_v6 (by decide)).trans ((keep3 m ρ c main_v6 (by decide)).trans ((W7_of_ne m ρ c main_v6 (by decide)).trans ((W6_of_ne m ρ c main_v6 (by decide)).trans ((keep1 m ρ c main_v6 (by decide)).trans (W4_of_ne m ρ c main_v6 (by decide))))))))))
theorem v29_at4 (c : Dev nD) : W4 m ρ c (Proc.devRef .tc main_v29) = W3 m ρ c (Proc.devRef .tc main_v29) :=
  W4_of_ne m ρ c main_v29 (by decide)
theorem v29_at7 (c : Dev nD) : W7 m ρ c (Proc.devRef .tc main_v29) = W3 m ρ c (Proc.devRef .tc main_v29) :=
  (W7_of_ne m ρ c main_v29 (by decide)).trans ((W6_of_ne m ρ c main_v29 (by decide)).trans ((keep1 m ρ c main_v29 (by decide)).trans (W4_of_ne m ρ c main_v29 (by decide))))
theorem v29_at10 (c : Dev nD) : W10 m ρ c (Proc.devRef .tc main_v29) = W3 m ρ c (Proc.devRef .tc main_v29) :=
  (W10_of_ne m ρ c main_v29 (by decide)).trans ((W9_of_ne m ρ c main_v29 (by decide)).trans ((keep3 m ρ c main_v29 (by decide)).trans ((W7_of_ne m ρ c main_v29 (by decide)).trans ((W6_of_ne m ρ c main_v29 (by decide)).trans ((keep1 m ρ c main_v29 (by decide)).trans (W4_of_ne m ρ c main_v29 (by decide)))))))
theorem v29_at13 (c : Dev nD) : W13 m ρ c (Proc.devRef .tc main_v29) = W3 m ρ c (Proc.devRef .tc main_v29) :=
  (W13_of_ne m ρ c main_v29 (by decide)).trans ((W12_of_ne m ρ c main_v29 (by decide)).trans ((keep5 m ρ c main_v29 (by decide)).trans ((W10_of_ne m ρ c main_v29 (by decide)).trans ((W9_of_ne m ρ c main_v29 (by decide)).trans ((keep3 m ρ c main_v29 (by decide)).trans ((W7_of_ne m ρ c main_v29 (by decide)).trans ((W6_of_ne m ρ c main_v29 (by decide)).trans ((keep1 m ρ c main_v29 (by decide)).trans (W4_of_ne m ρ c main_v29 (by decide))))))))))

/-! ## The argument arrays, where a region reads them, are as launched -/
theorem arg0_at3 (c : Dev nD) : W3 m ρ c (Proc.devRef .tc main_arg0) = m ((c : Thread nD τ).loc main_arg0) :=
  ((keep0_2 m ρ c main_arg0 (by decide)).trans ((keep0_1 m ρ c main_arg0 (by decide)).trans (keep0 m ρ c main_arg0 (by decide)))).trans rfl
theorem arg3_at3 (c : Dev nD) : W3 m ρ c (Proc.devRef .tc main_arg3) = m ((c : Thread nD τ).loc main_arg3) :=
  ((keep0_2 m ρ c main_arg3 (by decide)).trans ((keep0_1 m ρ c main_arg3 (by decide)).trans (keep0 m ρ c main_arg3 (by decide)))).trans rfl
theorem arg4_at5 (c : Dev nD) : W5 m ρ c (Proc.devRef .tc main_arg4) = m ((c : Thread nD τ).loc main_arg4) :=
  ((keep1 m ρ c main_arg4 (by decide)).trans ((W4_of_ne m ρ c main_arg4 (by decide)).trans ((keep0_2 m ρ c main_arg4 (by decide)).trans ((keep0_1 m ρ c main_arg4 (by decide)).trans (keep0 m ρ c main_arg4 (by decide)))))).trans rfl
theorem arg5_at6 (c : Dev nD) : W6 m ρ c (Proc.devRef .tc main_arg5) = m ((c : Thread nD τ).loc main_arg5) :=
  ((W6_of_ne m ρ c main_arg5 (by decide)).trans ((keep1 m ρ c main_arg5 (by decide)).trans ((W4_of_ne m ρ c main_arg5 (by decide)).trans ((keep0_2 m ρ c main_arg5 (by decide)).trans ((keep0_1 m ρ c main_arg5 (by decide)).trans (keep0 m ρ c main_arg5 (by decide))))))).trans rfl
theorem arg6_at8 (c : Dev nD) : W8 m ρ c (Proc.devRef .tc main_arg6) = m ((c : Thread nD τ).loc main_arg6) :=
  ((keep3 m ρ c main_arg6 (by decide)).trans ((W7_of_ne m ρ c main_arg6 (by decide)).trans ((W6_of_ne m ρ c main_arg6 (by decide)).trans ((keep1 m ρ c main_arg6 (by decide)).trans ((W4_of_ne m ρ c main_arg6 (by decide)).trans ((keep0_2 m ρ c main_arg6 (by decide)).trans ((keep0_1 m ρ c main_arg6 (by decide)).trans (keep0 m ρ c main_arg6 (by decide))))))))).trans rfl
theorem arg7_at9 (c : Dev nD) : W9 m ρ c (Proc.devRef .tc main_arg7) = m ((c : Thread nD τ).loc main_arg7) :=
  ((W9_of_ne m ρ c main_arg7 (by decide)).trans ((keep3 m ρ c main_arg7 (by decide)).trans ((W7_of_ne m ρ c main_arg7 (by decide)).trans ((W6_of_ne m ρ c main_arg7 (by decide)).trans ((keep1 m ρ c main_arg7 (by decide)).trans ((W4_of_ne m ρ c main_arg7 (by decide)).trans ((keep0_2 m ρ c main_arg7 (by decide)).trans ((keep0_1 m ρ c main_arg7 (by decide)).trans (keep0 m ρ c main_arg7 (by decide)))))))))).trans rfl
theorem arg8_at11 (c : Dev nD) : W11 m ρ c (Proc.devRef .tc main_arg8) = m ((c : Thread nD τ).loc main_arg8) :=
  ((keep5 m ρ c main_arg8 (by decide)).trans ((W10_of_ne m ρ c main_arg8 (by decide)).trans ((W9_of_ne m ρ c main_arg8 (by decide)).trans ((keep3 m ρ c main_arg8 (by decide)).trans ((W7_of_ne m ρ c main_arg8 (by decide)).trans ((W6_of_ne m ρ c main_arg8 (by decide)).trans ((keep1 m ρ c main_arg8 (by decide)).trans ((W4_of_ne m ρ c main_arg8 (by decide)).trans ((keep0_2 m ρ c main_arg8 (by decide)).trans ((keep0_1 m ρ c main_arg8 (by decide)).trans (keep0 m ρ c main_arg8 (by decide)))))))))))).trans rfl
theorem arg9_at12 (c : Dev nD) : W12 m ρ c (Proc.devRef .tc main_arg9) = m ((c : Thread nD τ).loc main_arg9) :=
  ((W12_of_ne m ρ c main_arg9 (by decide)).trans ((keep5 m ρ c main_arg9 (by decide)).trans ((W10_of_ne m ρ c main_arg9 (by decide)).trans ((W9_of_ne m ρ c main_arg9 (by decide)).trans ((keep3 m ρ c main_arg9 (by decide)).trans ((W7_of_ne m ρ c main_arg9 (by decide)).trans ((W6_of_ne m ρ c main_arg9 (by decide)).trans ((keep1 m ρ c main_arg9 (by decide)).trans ((W4_of_ne m ρ c main_arg9 (by decide)).trans ((keep0_2 m ρ c main_arg9 (by decide)).trans ((keep0_1 m ρ c main_arg9 (by decide)).trans (keep0 m ρ c main_arg9 (by decide))))))))))))).trans rfl
theorem arg10_at14 (c : Dev nD) : W14 m ρ c (Proc.devRef .tc main_arg10) = m ((c : Thread nD τ).loc main_arg10) :=
  ((keep7 m ρ c main_arg10 (by decide)).trans ((W13_of_ne m ρ c main_arg10 (by decide)).trans ((W12_of_ne m ρ c main_arg10 (by decide)).trans ((keep5 m ρ c main_arg10 (by decide)).trans ((W10_of_ne m ρ c main_arg10 (by decide)).trans ((W9_of_ne m ρ c main_arg10 (by decide)).trans ((keep3 m ρ c main_arg10 (by decide)).trans ((W7_of_ne m ρ c main_arg10 (by decide)).trans ((W6_of_ne m ρ c main_arg10 (by decide)).trans ((keep1 m ρ c main_arg10 (by decide)).trans ((W4_of_ne m ρ c main_arg10 (by decide)).trans ((keep0_2 m ρ c main_arg10 (by decide)).trans ((keep0_1 m ρ c main_arg10 (by decide)).trans (keep0 m ρ c main_arg10 (by decide))))))))))))))).trans rfl

end Cert.Gcn.KKeep

end
-- ==== Proof.KernelReads.lean ====
/-
  The idealized kernel's host stretches, each read as the specification's operations of the buffers it starts from.

  Stretch 0 computes, from the edge list, the sources, the targets, the degree's comparison and inverse square root;
  stretch 0_1 chooses between them (`dis`); stretch 0_2 gathers `dis` at both endpoints and multiplies (`nrm`); each of the
  stretches 1, 3, 5, 7 is one aggregation `agg`. Every lemma is stated from ARBITRARY starting contents V, so nothing
  about earlier segments is opened here.
-/
import proofs.«160761_j24318104830697_1_alg».proof.Proof.Spec
import proofs.«160761_j24318104830697_1_alg».proof.Proof.Gen.KernelIdeal.Launch
import proofs.«160761_j24318104830697_1_alg».proof.Proof.Gen.ReferenceIdeal
import Idealize.ShloMosaic.Lib.StableHlo.Run

set_option maxRecDepth 16384

noncomputable section

namespace Cert.Gcn.KReads

open Idealize.ShloMosaic Idealize.ShloMosaic.TcCoe Idealize.ShloMosaic.StableHlo Idealize.SL.Sem
open Cert.KernelIdeal Cert.KernelIdeal.Gen

/-! ## Stretch 0: the endpoints and the degree -/

/-- The edge sources. -/
theorem v3_of_0 (V : Valuation τ sig (Elt Ideal)) :
    StableHlo.after hostOps0 V (Proc.devRef .tc main_v3) = Cert.Gcn.src (V (Proc.devRef .tc main_arg1)) := by
  dsimp only [hostOps0]
  after_results_simp
  rfl

/-- The edge targets. -/
theorem v6_of_0 (V : Valuation τ sig (Elt Ideal)) :
    StableHlo.after hostOps0 V (Proc.devRef .tc main_v6) = Cert.Gcn.dst (V (Proc.devRef .tc main_arg1)) := by
  dsimp only [hostOps0]
  after_results_simp
  rfl

/-- Where the degree is positive. -/
theorem v12_of_0 (V : Valuation τ sig (Elt Ideal)) :
    StableHlo.after hostOps0 V (Proc.devRef .tc main_v12) = cmpf .ogt (Cert.Gcn.deg (Cert.Gcn.dst (V (Proc.devRef .tc main_arg1)))) (broadcastInDim Cert.ReferenceIdeal.S100000 ![] Cert.ReferenceIdeal.Facts₀.bcast_S_S100000 (constant (F := Ideal) Cert.ReferenceIdeal.S_ .f32 0x00000000#32)) := by
  dsimp only [hostOps0]
  after_results_simp
  rfl

/-- The degree's inverse square root. -/
theorem v13_of_0 (V : Valuation τ sig (Elt Ideal)) :
    StableHlo.after hostOps0 V (Proc.devRef .tc main_v13) = Host.rsqrt (F := Ideal) (Cert.Gcn.deg (Cert.Gcn.dst (V (Proc.devRef .tc main_arg1)))) := by
  dsimp only [hostOps0]
  after_results_simp
  rfl

/-- The zero that stands where the degree is not positive. -/
theorem cst_2_of_0 (V : Valuation τ sig (Elt Ideal)) :
    StableHlo.after hostOps0 V (Proc.devRef .tc main_cst_2) = constant (F := Ideal) Cert.ReferenceIdeal.S_ .f32 0x00000000#32 := by
  dsimp only [hostOps0]
  after_results_simp

/-! ## Stretch 0_1: the choice -/

/-- The inverse square root where the degree is positive, zero elsewhere. -/
theorem v14_of_0_1 (V : Valuation τ sig (Elt Ideal)) :
    StableHlo.after hostOps0_1 V (Proc.devRef .tc main_v14) = select (V (Proc.devRef .tc main_v12)) (V (Proc.devRef .tc main_v13)) (broadcastInDim Cert.ReferenceIdeal.S100000 ![] Cert.ReferenceIdeal.Facts₀.bcast_S_S100000 (id (V (Proc.devRef .tc main_cst_2)))) := by
  dsimp only [hostOps0_1]
  after_results_simp
  rfl

/-! ## Stretch 0_2: the edge weights -/

/-- The product of the two gathered factors. -/
theorem v29_of_0_2 (V : Valuation τ sig (Elt Ideal)) :
    StableHlo.after hostOps0_2 V (Proc.devRef .tc main_v29) = (mulf (Host.gather Cert.ReferenceIdeal.gather_S100000_S1700000x1_S1700000_n_0_n_n_0_1_1 (V (Proc.devRef .tc main_v14) : Cert.Gcn.NodeV) (Cert.Gcn.wrap (V (Proc.devRef .tc main_v3)))) (Host.gather Cert.ReferenceIdeal.gather_S100000_S1700000x1_S1700000_n_0_n_n_0_1_1 (V (Proc.devRef .tc main_v14) : Cert.Gcn.NodeV) (Cert.Gcn.wrap (V (Proc.devRef .tc main_v6)))) : Cert.Gcn.ENorm) := by
  dsimp only [hostOps0_2]
  after_results_simp
  rfl

/-! ## Stretches 1, 3, 5, 7: one aggregation each -/

/-- The first layer's aggregation. -/
theorem v43_of_1 (V : Valuation τ sig (Elt Ideal)) :
    StableHlo.after hostOps1 V (Proc.devRef .tc main_v43) = Cert.Gcn.agg (V (Proc.devRef .tc main_v3)) (V (Proc.devRef .tc main_v6)) (V (Proc.devRef .tc main_v29)) (V (Proc.devRef .tc main_v30)) := by
  dsimp only [hostOps1]
  after_results_simp
  rfl

/-- The second layer's aggregation. -/
theorem v58_of_3 (V : Valuation τ sig (Elt Ideal)) :
    StableHlo.after hostOps3 V (Proc.devRef .tc main_v58) = Cert.Gcn.agg (V (Proc.devRef .tc main_v3)) (V (Proc.devRef .tc main_v6)) (V (Proc.devRef .tc main_v29)) (V (Proc.devRef .tc main_v45)) := by
  dsimp only [hostOps3]
  after_results_simp
  rfl

/-- The third layer's aggregation. -/
theorem v73_of_5 (V : Valuation τ sig (Elt Ideal)) :
    StableHlo.after hostOps5 V (Proc.devRef .tc main_v73) = Cert.Gcn.agg (V (Proc.devRef .tc main_v3)) (V (Proc.devRef .tc main_v6)) (V (Proc.devRef .tc main_v29)) (V (Proc.devRef .tc main_v60)) := by
  dsimp only [hostOps5]
  after_results_simp
  rfl

/-- The fourth layer's aggregation. -/
theorem v88_of_7 (V : Valuation τ sig (Elt Ideal)) :
    StableHlo.after hostOps7 V (Proc.devRef .tc main_v88) = Cert.Gcn.agg (V (Proc.devRef .tc main_v3)) (V (Proc.devRef .tc main_v6)) (V (Proc.devRef .tc main_v29)) (V (Proc.devRef .tc main_v75)) := by
  dsimp only [hostOps7]
  after_results_simp
  rfl

end Cert.Gcn.KReads

end
-- ==== Proof.KernelChain.lean ====
/-
  The idealized kernel's result as the network of the specification.

  Boundary 3 (the first region's entry) holds the edge sources S, the edge targets D and the edge weights N: the first
  three stretches of host operations compute them from the edge list as the specification spells them. Each later
  stretch is one aggregation of the matrix the region before it produced. The regions are taken as hypotheses
  (`RegionValues`): a product region leaves `lin` of its two arrays, an activation region `elu (bias · ·)`, the last region
  `bias`. Going through the fifteen segments layer by layer, with every value that is read later carried unchanged to
  where it is read, gives the result array as `out` of the argument arrays.
-/
import proofs.«160761_j24318104830697_1_alg».proof.Proof.Spec
import proofs.«160761_j24318104830697_1_alg».proof.Proof.KernelKeep
import proofs.«160761_j24318104830697_1_alg».proof.Proof.KernelReads
import proofs.«160761_j24318104830697_1_alg».proof.Proof.Gen.ReferenceIdeal

set_option maxRecDepth 16384

noncomputable section

namespace Cert.Gcn.KChain

open Idealize.ShloMosaic Idealize.ShloMosaic.TcCoe Idealize.ShloMosaic.StableHlo Idealize.SL.Sem
open Cert.KernelIdeal Cert.KernelIdeal.Gen

/-- What the eight regions leave in their output arrays, each as one function of the region's two input arrays. -/
structure RegionValues : Prop where
  lin0 : ∀ (V : (c : Dev nD) → (b : Ref sig .tc) → Buf (Elt Ideal) ((c : Thread nD τ).loc b)) (c : Dev nD), (dat0 (F := Ideal) V c).arrAt 2 cfg0.N = Cert.Gcn.lin (V c main_arg0) (V c main_arg3)
  act1 : ∀ (V : (c : Dev nD) → (b : Ref sig .tc) → Buf (Elt Ideal) ((c : Thread nD τ).loc b)) (c : Dev nD), (dat1 (F := Ideal) V c).arrAt 2 cfg1.N = Cert.Gcn.elu (Cert.Gcn.bias (V c main_v43) (V c main_arg4))
  lin2 : ∀ (V : (c : Dev nD) → (b : Ref sig .tc) → Buf (Elt Ideal) ((c : Thread nD τ).loc b)) (c : Dev nD), (dat2 (F := Ideal) V c).arrAt 2 cfg2.N = Cert.Gcn.lin (V c main_v44) (V c main_arg5)
  act3 : ∀ (V : (c : Dev nD) → (b : Ref sig .tc) → Buf (Elt Ideal) ((c : Thread nD τ).loc b)) (c : Dev nD), (dat3 (F := Ideal) V c).arrAt 2 cfg3.N = Cert.Gcn.elu (Cert.Gcn.bias (V c main_v58) (V c main_arg6))
  lin4 : ∀ (V : (c : Dev nD) → (b : Ref sig .tc) → Buf (Elt Ideal) ((c : Thread nD τ).loc b)) (c : Dev nD), (dat4 (F := Ideal) V c).arrAt 2 cfg4.N = Cert.Gcn.lin (V c main_v59) (V c main_arg7)
  act5 : ∀ (V : (c : Dev nD) → (b : Ref sig .tc) → Buf (Elt Ideal) ((c : Thread nD τ).loc b)) (c : Dev nD), (dat5 (F := Ideal) V c).arrAt 2 cfg5.N = Cert.Gcn.elu (Cert.Gcn.bias (V c main_v73) (V c main_arg8))
  lin6 : ∀ (V : (c : Dev nD) → (b : Ref sig .tc) → Buf (Elt Ideal) ((c : Thread nD τ).loc b)) (c : Dev nD), (dat6 (F := Ideal) V c).arrAt 2 cfg6.N = Cert.Gcn.lin (V c main_v74) (V c main_arg9)
  bias7 : ∀ (V : (c : Dev nD) → (b : Ref sig .tc) → Buf (Elt Ideal) ((c : Thread nD τ).loc b)) (c : Dev nD), (dat7 (F := Ideal) V c).arrAt 2 cfg7.N = Cert.Gcn.bias (V c main_v88) (V c main_arg10)

variable (m : (ℓ : Loc nD τ sig) → Buf (Elt Ideal) ℓ) (ρ : Dev nD → PrngReg) (c : Dev nD)

/-- The edge sources, from the edge list as launched. -/
abbrev S : Cert.Gcn.EIdx := Cert.Gcn.src (m ((c : Thread nD τ).loc main_arg1))
/-- The edge targets. -/
abbrev D : Cert.Gcn.EIdx := Cert.Gcn.dst (m ((c : Thread nD τ).loc main_arg1))
/-- The edge weights. -/
abbrev N : Cert.Gcn.ENorm := Cert.Gcn.nrm (S m c) (D m c)
/-- The features after the first, second and third layer. -/
abbrev H1 : Cert.Gcn.Mat := Cert.Gcn.elu (Cert.Gcn.conv (S m c) (D m c) (N m c) (m ((c : Thread nD τ).loc main_arg0)) (m ((c : Thread nD τ).loc main_arg3)) (m ((c : Thread nD τ).loc main_arg4)))
abbrev H2 : Cert.Gcn.Mat := Cert.Gcn.elu (Cert.Gcn.conv (S m c) (D m c) (N m c) (H1 m c) (m ((c : Thread nD τ).loc main_arg5)) (m ((c : Thread nD τ).loc main_arg6)))
abbrev H3 : Cert.Gcn.Mat := Cert.Gcn.elu (Cert.Gcn.conv (S m c) (D m c) (N m c) (H2 m c) (m ((c : Thread nD τ).loc main_arg7)) (m ((c : Thread nD τ).loc main_arg8)))

/-! ## The first three stretches: the endpoints and the edge weights -/

theorem src_at1 : W1 m ρ c (Proc.devRef .tc main_v3) = S m c := KReads.v3_of_0 (W0 m ρ c)
theorem dst_at1 : W1 m ρ c (Proc.devRef .tc main_v6) = D m c := KReads.v6_of_0 (W0 m ρ c)

/-- Boundary 3 holds the edge sources. -/
theorem src_at3 : W3 m ρ c (Proc.devRef .tc main_v3) = S m c := ((KKeep.keep0_2 m ρ c main_v3 (by decide)).trans (KKeep.keep0_1 m ρ c main_v3 (by decide))).trans (src_at1 m ρ c)
/-- Boundary 3 holds the edge targets. -/
theorem dst_at3 : W3 m ρ c (Proc.devRef .tc main_v6) = D m c := ((KKeep.keep0_2 m ρ c main_v6 (by decide)).trans (KKeep.keep0_1 m ρ c main_v6 (by decide))).trans (dst_at1 m ρ c)

theorem dis_of {g : Cert.Gcn.NodeV} {a : IVec Cert.ReferenceIdeal.S100000 1} {b : Cert.Gcn.NodeV} {z : FVec Ideal Cert.ReferenceIdeal.S_ .f32}
    (ha : a = cmpf .ogt g (broadcastInDim Cert.ReferenceIdeal.S100000 ![] Cert.ReferenceIdeal.Facts₀.bcast_S_S100000 (constant (F := Ideal) Cert.ReferenceIdeal.S_ .f32 0x00000000#32)))
    (hb : b = Host.rsqrt (F := Ideal) g) (hz : z = constant (F := Ideal) Cert.ReferenceIdeal.S_ .f32 0x00000000#32) :
    select a b (broadcastInDim Cert.ReferenceIdeal.S100000 ![] Cert.ReferenceIdeal.Facts₀.bcast_S_S100000 (id z)) = Cert.Gcn.dis g := by
  subst ha hb hz; rfl

/-- Boundary 2 holds dis: the degree's inverse square root where the degree is positive, zero elsewhere. -/
theorem dis_at2 : W2 m ρ c (Proc.devRef .tc main_v14) = Cert.Gcn.dis (Cert.Gcn.deg (D m c)) :=
  (KReads.v14_of_0_1 (W1 m ρ c)).trans
    (dis_of (KReads.v12_of_0 (W0 m ρ c)) (KReads.v13_of_0 (W0 m ρ c)) (KReads.cst_2_of_0 (W0 m ρ c)))

theorem nrm_of {g g' : Cert.Gcn.NodeV} {a b s d : Cert.Gcn.EIdx} (hg : g = Cert.Gcn.dis (Cert.Gcn.deg d)) (ha : a = s) (hb : b = d) :
    mulf (Host.gather Cert.ReferenceIdeal.gather_S100000_S1700000x1_S1700000_n_0_n_n_0_1_1 g (Cert.Gcn.wrap a))
         (Host.gather Cert.ReferenceIdeal.gather_S100000_S1700000x1_S1700000_n_0_n_n_0_1_1 g (Cert.Gcn.wrap b)) = Cert.Gcn.nrm s d := by
  subst hg ha hb; rfl

/-- Boundary 3 holds the edge weights. -/
theorem nrm_at3 : W3 m ρ c (Proc.devRef .tc main_v29) = N m c :=
  (KReads.v29_of_0_2 (W2 m ρ c)).trans
    (nrm_of (g' := Cert.Gcn.dis (Cert.Gcn.deg (D m c))) (dis_at2 m ρ c)
      ((KKeep.keep0_1 m ρ c main_v3 (by decide)).trans (src_at1 m ρ c))
      ((KKeep.keep0_1 m ρ c main_v6 (by decide)).trans (dst_at1 m ρ c)))

/-! ## The layers -/

theorem agg_congr {s s' d d' : Cert.Gcn.EIdx} {n n' : Cert.Gcn.ENorm} {h h' : Cert.Gcn.Mat}
    (hs : s = s') (hd : d = d') (hn : n = n') (hh : h = h') : Cert.Gcn.agg s d n h = Cert.Gcn.agg s' d' n' h' := by
  subst hs hd hn hh; rfl

variable (rv : RegionValues)
include rv

/-- Layer 1, the product. -/
theorem prod1 : W4 m ρ c (Proc.devRef .tc main_v30) = Cert.Gcn.lin (m ((c : Thread nD τ).loc main_arg0)) (m ((c : Thread nD τ).loc main_arg3)) :=
  (W4_arr m ρ c 2).trans ((rv.lin0 (V3 m ρ) c).trans (congrArg₂ Cert.Gcn.lin (KKeep.arg0_at3 m ρ c) (KKeep.arg3_at3 m ρ c)))
/-- Layer 1, the aggregation. -/
theorem aggr1 : W5 m ρ c (Proc.devRef .tc main_v43) = Cert.Gcn.agg (S m c) (D m c) (N m c) (Cert.Gcn.lin (m ((c : Thread nD τ).loc main_arg0)) (m ((c : Thread nD τ).loc main_arg3))) :=
  (KReads.v43_of_1 (W4 m ρ c)).trans (agg_congr ((KKeep.v3_at4 m ρ c).trans (src_at3 m ρ c)) ((KKeep.v6_at4 m ρ c).trans (dst_at3 m ρ c)) ((KKeep.v29_at4 m ρ c).trans (nrm_at3 m ρ c)) (prod1 m ρ c rv))
/-- Layer 1, the bias and the activation. -/
theorem feat1 : W6 m ρ c (Proc.devRef .tc main_v44) = H1 m c :=
  (W6_arr m ρ c 2).trans ((rv.act1 (V5 m ρ) c).trans (congrArg Cert.Gcn.elu (congrArg₂ Cert.Gcn.bias (aggr1 m ρ c rv) (KKeep.arg4_at5 m ρ c))))

/-- Layer 2. -/
theorem prod2 : W7 m ρ c (Proc.devRef .tc main_v45) = Cert.Gcn.lin (H1 m c) (m ((c : Thread nD τ).loc main_arg5)) :=
  (W7_arr m ρ c 2).trans ((rv.lin2 (V6 m ρ) c).trans (congrArg₂ Cert.Gcn.lin (feat1 m ρ c rv) (KKeep.arg5_at6 m ρ c)))
theorem aggr2 : W8 m ρ c (Proc.devRef .tc main_v58) = Cert.Gcn.agg (S m c) (D m c) (N m c) (Cert.Gcn.lin (H1 m c) (m ((c : Thread nD τ).loc main_arg5))) :=
  (KReads.v58_of_3 (W7 m ρ c)).trans (agg_congr ((KKeep.v3_at7 m ρ c).trans (src_at3 m ρ c)) ((KKeep.v6_at7 m ρ c).trans (dst_at3 m ρ c)) ((KKeep.v29_at7 m ρ c).trans (nrm_at3 m ρ c)) (prod2 m ρ c rv))
theorem feat2 : W9 m ρ c (Proc.devRef .tc main_v59) = H2 m c :=
  (W9_arr m ρ c 2).trans ((rv.act3 (V8 m ρ) c).trans (congrArg Cert.Gcn.elu (congrArg₂ Cert.Gcn.bias (aggr2 m ρ c rv) (KKeep.arg6_at8 m ρ c))))

/-- Layer 3. -/
theorem prod3 : W10 m ρ c (Proc.devRef .tc main_v60) = Cert.Gcn.lin (H2 m c) (m ((c : Thread nD τ).loc main_arg7)) :=
  (W10_arr m ρ c 2).trans ((rv.lin4 (V9 m ρ) c).trans (congrArg₂ Cert.Gcn.lin (feat2 m ρ c rv) (KKeep.arg7_at9 m ρ c)))
theorem aggr3 : W11 m ρ c (Proc.devRef .tc main_v73) = Cert.Gcn.agg (S m c) (D m c) (N m c) (Cert.Gcn.lin (H2 m c) (m ((c : Thread nD τ).loc main_arg7))) :=
  (KReads.v73_of_5 (W10 m ρ c)).trans (agg_congr ((KKeep.v3_at10 m ρ c).trans (src_at3 m ρ c)) ((KKeep.v6_at10 m ρ c).trans (dst_at3 m ρ c)) ((KKeep.v29_at10 m ρ c).trans (nrm_at3 m ρ c)) (prod3 m ρ c rv))
theorem feat3 : W12 m ρ c (Proc.devRef .tc main_v74) = H3 m c :=
  (W12_arr m ρ c 2).trans ((rv.act5 (V11 m ρ) c).trans (congrArg Cert.Gcn.elu (congrArg₂ Cert.Gcn.bias (aggr3 m ρ c rv) (KKeep.arg8_at11 m ρ c))))

/-- Layer 4 (no activation). -/
theorem prod4 : W13 m ρ c (Proc.devRef .tc main_v75) = Cert.Gcn.lin (H3 m c) (m ((c : Thread nD τ).loc main_arg9)) :=
  (W13_arr m ρ c 2).trans ((rv.lin6 (V12 m ρ) c).trans (congrArg₂ Cert.Gcn.lin (feat3 m ρ c rv) (KKeep.arg9_at12 m ρ c)))
theorem aggr4 : W14 m ρ c (Proc.devRef .tc main_v88) = Cert.Gcn.agg (S m c) (D m c) (N m c) (Cert.Gcn.lin (H3 m c) (m ((c : Thread nD τ).loc main_arg9))) :=
  (KReads.v88_of_7 (W13 m ρ c)).trans (agg_congr ((KKeep.v3_at13 m ρ c).trans (src_at3 m ρ c)) ((KKeep.v6_at13 m ρ c).trans (dst_at3 m ρ c)) ((KKeep.v29_at13 m ρ c).trans (nrm_at3 m ρ c)) (prod4 m ρ c rv))

/-- The result array after the last segment is the network of the specification at the argument arrays. -/
theorem value :
    W15 m ρ c (Proc.devRef .tc main_v89)
      = Cert.Gcn.out (m ((c : Thread nD τ).loc main_arg0)) (m ((c : Thread nD τ).loc main_arg1)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) :=
  (W15_arr m ρ c 2).trans ((rv.bias7 (V14 m ρ) c).trans (congrArg₂ Cert.Gcn.bias (aggr4 m ρ c rv) (KKeep.arg10_at14 m ρ c)))

end Cert.Gcn.KChain

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«160761_j24318104830697_1_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.RegionPay.lean ====
/-
  What one tile of each region's body computes, read at an index, and what the reference's whole-array operations read
  at an index — the two sides of every region's equation, entry by entry.

  The matrix-product body: entry (p, q) of the tile is the sum over k of x(p, k) · w(k, q); the reference's product h · W
  reads the same sum at (r, q). The bias-and-activation body: with v = x(p, q) + b(q), the entry is v where v > 0 and
  e^v − 1 elsewhere; the reference's activation of a + b reads, at (r, q) with v = a(r, q) + b(q), v where v > 0 and
  1 · (e^t − 1) at t = (0 where v > 0, else v) elsewhere, which is the same number. The bias-only body is v itself.
-/
import proofs.«160761_j24318104830697_1_alg».proof.Proof.Spec
import proofs.«160761_j24318104830697_1_alg».proof.Proof.LibPlainDot
import proofs.«160761_j24318104830697_1_alg».proof.Proof.LibPlainDotGeneral
import proofs.«160761_j24318104830697_1_alg».proof.Proof.LibKeepdims
import proofs.«160761_j24318104830697_1_alg».proof.Proof.LibJoinLayout
import proofs.«160761_j24318104830697_1_alg».proof.Proof.Gen.KernelIdeal.Skeleton
import proofs.«160761_j24318104830697_1_alg».proof.Proof.Gen.ReferenceIdeal

noncomputable section

namespace Cert.Gcn.Regions

open Idealize.ShloMosaic Idealize.ShloMosaic.ValueIdx Idealize.SL.Sem Cert.KernelIdeal Cert.KernelIdeal.Gen

/-- The offsets of a whole-block access of a matrix, however they are spelt, are zero. -/
theorem zero_offsets2 : (![0, 0] : Fin 2 → Nat) = fun _ => 0 := funext fun a => by fin_cases a <;> rfl

/-- The offset of a whole-block access of a vector is zero. -/
theorem zero_offsets1 : (![0] : Fin 1 → Nat) = fun _ => 0 := funext fun a => by fin_cases a; rfl

/-! ## The matrix product -/

/-- The tile product's dimension numbers are a plain [10000, 64] × [64, 64] product's. -/
theorem tile_plain : PlainDot.IsPlain (M := 10000) (K := 64) (N := 64) dot_S10000x64_S64x64_S10000x64_1_0_0_1_n_n :=
  ⟨rfl, rfl, fun _ _ => rfl, fun _ _ => rfl, fun _ _ => rfl, fun _ _ => rfl⟩

/-- The reference product's dimension numbers are a plain [100000, 64] × [64, 64] product's. -/
theorem whole_plain : PlainDot.IsPlain (M := 100000) (K := 64) (N := 64) Cert.ReferenceIdeal.dot_S100000x64_S64x64_S100000x64_1_0_0_1_n_n :=
  ⟨rfl, rfl, fun _ _ => rfl, fun _ _ => rfl, fun _ _ => rfl, fun _ _ => rfl⟩

/-- Entry (p, q) of a tile's product: the sum over k of x(p, k) · w(k, q). -/
theorem tile_product_apply (x : Vec Ideal S10000x64 .f32) (w : Vec Ideal S64x64 .f32) (p : Fin 10000) (q : Fin 64) :
    k0_pay1 x w (ix2 p q) = ∑ k : Fin 64, x (ix2 p k) * w (ix2 k q) := by
  unfold k0_pay1
  exact PlainDot.matmul_zero_apply dot_S10000x64_S64x64_S10000x64_1_0_0_1_n_n tile_plain none
    (truncf .bf16 x bitsLt_bf16_f32) (truncf .bf16 w bitsLt_bf16_f32) p q

/-- Entry (r, q) of the reference's product h · W: the sum over k of h(r, k) · W(k, q). -/
theorem lin_apply (h : Mat) (w : Wt) (r : Fin 100000) (q : Fin 64) :
    lin h w (ix2 r q) = ∑ k : Fin 64, h (ix2 r k) * w (ix2 k q) :=
  PlainDot.dotGeneral_apply Cert.ReferenceIdeal.dot_S100000x64_S64x64_S100000x64_1_0_0_1_n_n whole_plain none h w r q

/-- The later layers' tiles recast the left block to its own shape first, which changes nothing. -/
theorem tile_product_apply2 (x : Vec Ideal S10000x64 .f32) (w : Vec Ideal S64x64 .f32) (p : Fin 10000) (q : Fin 64) :
    k2_pay1 x w (ix2 p q) = ∑ k : Fin 64, x (ix2 p k) * w (ix2 k q) := by
  show k0_pay1 (shapeCast S10000x64 x shapeCasts_S10000x64_S10000x64) w (ix2 p q) = _
  rw [shapeCast_self]
  exact tile_product_apply x w p q

theorem tile_product_apply4 (x : Vec Ideal S10000x64 .f32) (w : Vec Ideal S64x64 .f32) (p : Fin 10000) (q : Fin 64) :
    k4_pay1 x w (ix2 p q) = ∑ k : Fin 64, x (ix2 p k) * w (ix2 k q) :=
  tile_product_apply2 x w p q

theorem tile_product_apply6 (x : Vec Ideal S10000x64 .f32) (w : Vec Ideal S64x64 .f32) (p : Fin 10000) (q : Fin 64) :
    k6_pay1 x w (ix2 p q) = ∑ k : Fin 64, x (ix2 p k) * w (ix2 k q) :=
  tile_product_apply2 x w p q

/-! ## The bias and the activation -/

/-- The word 0x3F800000 is the number 1. -/
theorem ofBits_one_f32 : Ideal.ofBits .f32 0x3F800000#32 = 1 := by
  simp [Ideal.ofBits, Ideal.ieee, -EReal.coe_mul]; norm_num

/-- The activation on one number: v where v > 0, e^v − 1 elsewhere. -/
def act (v : EReal) : EReal :=
  Scalar.select (Ideal.cmp .ogt v (Ideal.ofBits .f32 0x00000000#32)) v (Ideal.exp v - 1)

/-- Entry (p, q) of the bias-only tile: x(p, q) + b(q). -/
theorem tile_bias_apply (x : Vec Ideal S10000x64 .f32) (b : Vec Ideal S64 .f32) (p : Fin 10000) (q : Fin 64) :
    k7_pay1 x b (ix2 p q) = x (ix2 p q) + b (ix1 q) := by
  have hb : broadcastTo S10000x64 (shapeCast S1x64 b shapeCasts_S64_S1x64) broadcasts_S1x64_S10000x64 (ix2 p q) = b (ix1 q) :=
    Keepdims.broadcastTo_row_of_vec_apply b shapeCasts_S64_S1x64 broadcasts_S1x64_S10000x64 p q
  show shapeCast S10000x64 x shapeCasts_S10000x64_S10000x64 (ix2 p q)
      + broadcastTo S10000x64 (shapeCast S1x64 b shapeCasts_S64_S1x64) broadcasts_S1x64_S10000x64 (ix2 p q) = _
  rw [shapeCast_self, hb]

/-- Entry (p, q) of the bias-and-activation tile: the activation of x(p, q) + b(q). -/
theorem tile_act_apply (x : Vec Ideal S10000x64 .f32) (b : Vec Ideal S64 .f32) (p : Fin 10000) (q : Fin 64) :
    k1_pay1 x b (ix2 p q) = act (x (ix2 p q) + b (ix1 q)) := by
  have hv : k7_pay1 x b (ix2 p q) = x (ix2 p q) + b (ix1 q) := tile_bias_apply x b p q
  show Scalar.select (Ideal.cmp .ogt (k7_pay1 x b (ix2 p q)) (Ideal.ofBits .f32 0x00000000#32)) (k7_pay1 x b (ix2 p q))
      (Ideal.exp (k7_pay1 x b (ix2 p q)) - Ideal.ofBits .f32 0x3F800000#32) = _
  rw [hv, ofBits_one_f32]
  rfl

theorem tile_act_apply3 (x : Vec Ideal S10000x64 .f32) (b : Vec Ideal S64 .f32) (p : Fin 10000) (q : Fin 64) :
    k3_pay1 x b (ix2 p q) = act (x (ix2 p q) + b (ix1 q)) :=
  tile_act_apply x b p q

theorem tile_act_apply5 (x : Vec Ideal S10000x64 .f32) (b : Vec Ideal S64 .f32) (p : Fin 10000) (q : Fin 64) :
    k5_pay1 x b (ix2 p q) = act (x (ix2 p q) + b (ix1 q)) :=
  tile_act_apply x b p q

/-- Entry (r, q) of the reference's a + b: a(r, q) + b(q). -/
theorem bias_apply (a : Mat) (b : Bv) (r : Fin 100000) (q : Fin 64) :
    bias a b (ix2 r q) = a (ix2 r q) + b (ix1 q) := by
  unfold bias
  rw [addf_apply]
  exact congrArg (a (ix2 r q) + ·) (JoinLayout.broadcastInDim_row_of_vec_apply b _ _ r q)

/-- Entry (r, q) of the reference's activation: the activation of a(r, q). Where a(r, q) > 0 both choose the entry; elsewhere
    the inner choice is the entry itself, e^t − 1 is the exponential less one by definition, and the factor is 1. -/
theorem elu_apply (a : Mat) (r : Fin 100000) (q : Fin 64) : elu a (ix2 r q) = act (a (ix2 r q)) := by
  show Scalar.select (Ideal.cmp .ogt (a (ix2 r q)) (Ideal.ofBits .f32 0x00000000#32)) (a (ix2 r q))
      (Ideal.ofBits .f32 0x3F800000#32
        * (Ideal.exp (Scalar.select (Ideal.cmp .ogt (a (ix2 r q)) (Ideal.ofBits .f32 0x00000000#32))
            (Ideal.ofBits .f32 0x00000000#32) (a (ix2 r q))) - 1)) = _
  unfold act
  rcases BitVec.eq_zero_or_eq_one (Ideal.cmp .ogt (a (ix2 r q)) (Ideal.ofBits .f32 0x00000000#32)) with h | h
  · rw [h, select_zero, select_zero, select_zero, ofBits_one_f32, one_mul]
  · rw [h, select_one, select_one]

/-- Entry (r, q) of the reference's activation of a + b. -/
theorem elu_bias_apply (a : Mat) (b : Bv) (r : Fin 100000) (q : Fin 64) :
    elu (bias a b) (ix2 r q) = act (a (ix2 r q) + b (ix1 q)) := by
  rw [elu_apply, bias_apply]

end Cert.Gcn.Regions

end
-- ==== Proof.Region0.lean ====
/-
  Region 0: a matrix product. The array its ten points leave is the whole product of the two arrays it reads.

  Point t multiplies rows 10000·t … 10000·t + 9999 of the left array by the whole right array and writes the result to the
  same rows of the output; the ten blocks of rows tile the output, so the output ends as the product, row by row.
-/
import proofs.«160761_j24318104830697_1_alg».proof.Proof.RegionPay
import proofs.«160761_j24318104830697_1_alg».proof.Proof.Gen.KernelIdeal.Frame
import Idealize.ShloMosaic.Lib.Pipeline.Value

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The printed index maps over the grid: the left and the output windows' block index is (t, 0), the right window's (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left window's block at point t is entry (10000·t + p, k) of the left array. -/
theorem left_block0 (c : Dev nD) (t : Fin cfg0.N) (p : Fin 10000) (k : Fin 64) (r : Fin 100000) (hr : r.val = 10000 * t.val + p.val) :
    (iblk0 V c 0 t : Vec Ideal S10000x64 .f32) (ix2 p k) = (V c main_arg0 : FVec Ideal S100000x64 .f32) (ix2 r k) := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The right window's block at every point is the whole right array. -/
theorem right_block0 (c : Dev nD) (t : Fin cfg0.N) (k : Fin 64) (q : Fin 64) :
    (iblk0 V c 1 t : Vec Ideal S64x64 .f32) (ix2 k q) = (V c main_arg3 : FVec Ideal S64x64 .f32) (ix2 k q) := by
  obtain ⟨-, -, e2, e3, -⟩ := index_facts0 t
  unfold iblk0
  rw [View.read_apply]
  show V c main_arg3 _ = V c main_arg3 _
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- What point t writes back is block t of the product of the two arrays. -/
theorem flushed_eq0 (c : Dev nD) (t : Fin cfg0.N) :
    (dat0 V c).flushed 2 t = ((cfg0.win 2).blk t).view.read (Elt Ideal) (lin (V c main_arg0) (V c main_arg3)) := by
  show (cfg0.win 2).cut (grid0.coords t) ((dat0 V c).after 2 t) = _
  rw [after0_2]
  unfold out0_2
  rw [View.canon_unit_zero zero_offsets2]
  simp only [View.ld_unit_zero (S := S10000x64) zero_offsets2, View.ld_unit_zero (S := S64x64) zero_offsets2]
  obtain ⟨-, -, -, -, e4, e5⟩ := index_facts0 t
  funext j
  obtain ⟨p, q, rfl⟩ : ∃ (p : Fin 10000) (q : Fin 64), j = ix2 p q := ⟨j 0, j 1, eq_ix2 j⟩
  have ht : t.val < 10 := lt_of_lt_of_eq t.isLt N_0
  have hr : 10000 * t.val + p.val < 100000 := by omega
  have hemb : ((cfg0.win 2).blk t).view.emb (ix2 p q) = ix2 (⟨10000 * t.val + p.val, hr⟩ : Fin 100000) q := by
    funext a; apply Fin.ext
    match a with
    | ⟨0, _⟩ => show win0_2.index t (0 : Fin 2) * 10000 + 1 * p.val = 10000 * t.val + p.val; rw [e4]; omega
    | ⟨1, _⟩ => show win0_2.index t (1 : Fin 2) * 64 + 1 * q.val = q.val; rw [e5]; omega
  show k0_pay1 (iblk0 V c 0 t) (iblk0 V c 1 t) (ix2 p q) = lin (V c main_arg0) (V c main_arg3) (((cfg0.win 2).blk t).view.emb (ix2 p q))
  rw [hemb]
  refine (tile_product_apply (iblk0 V c 0 t) (iblk0 V c 1 t) p q).trans ?_
  refine Eq.trans ?_ (lin_apply (V c main_arg0) (V c main_arg3) ⟨10000 * t.val + p.val, hr⟩ q).symm
  exact Finset.sum_congr rfl fun k _ => by rw [left_block0 V c t p k ⟨_, hr⟩ rfl, right_block0 V c t k q]

/-- An index of the output is in point t's block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every index of the output is in the block of the point its row falls to, row / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := index_facts0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 64 ≤ (i 1).val ∧ (i 1).val < win0_2.index t (1 : Fin 2) * 64 + 64; rw [e5]; omega

/-- The array the region leaves is the product of the two arrays it reads. -/
theorem lin0 (c : Dev nD) : (dat0 (F := Ideal) V c).arrAt 2 cfg0.N = Cert.Gcn.lin (V c main_arg0) (V c main_arg3) :=
  (dat0 V c).arrAt_eq_of_cover 2 (lin (V c main_arg0) (V c main_arg3)) (fun t _ => flushed_eq0 V c t) cover0

end Cert.Gcn.Regions

end
-- ==== Proof.Region1.lean ====
/-
  Region 1: the bias and the activation. The array its ten points leave is the activation of (the array it reads plus
  the bias vector on every row).

  Point t reads rows 10000·t … 10000·t + 9999 of the array and the whole vector and writes the result to the same rows of
  the output; the ten blocks of rows tile the output, so the output ends as the whole-array function, entry by entry.
-/
import proofs.«160761_j24318104830697_1_alg».proof.Proof.RegionPay
import proofs.«160761_j24318104830697_1_alg».proof.Proof.Gen.KernelIdeal.Frame
import Idealize.ShloMosaic.Lib.Pipeline.Value

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The printed index maps over the grid: the array's and the output's windows' block index is (t, 0), the vector's 0. -/
theorem index_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Entry (p, k) of the array window's block at point t is entry (10000·t + p, k) of the array. -/
theorem left_block1 (c : Dev nD) (t : Fin cfg1.N) (p : Fin 10000) (k : Fin 64) (r : Fin 100000) (hr : r.val = 10000 * t.val + p.val) :
    (iblk1 V c 0 t : Vec Ideal S10000x64 .f32) (ix2 p k) = (V c main_v43 : FVec Ideal S100000x64 .f32) (ix2 r k) := by
  obtain ⟨e0, e1, -⟩ := index_facts1 t
  unfold iblk1
  rw [View.read_apply]
  show V c main_v43 _ = V c main_v43 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The vector window's block at every point is the whole vector. -/
theorem vec_block1 (c : Dev nD) (t : Fin cfg1.N) (q : Fin 64) :
    (iblk1 V c 1 t : Vec Ideal S64 .f32) (ix1 q) = (V c main_arg4 : FVec Ideal S64 .f32) (ix1 q) := by
  obtain ⟨-, -, e2, -⟩ := index_facts1 t
  unfold iblk1
  rw [View.read_apply]
  show V c main_arg4 _ = V c main_arg4 _
  congr 1
  funext a
  apply Fin.ext
  match a with
  | ⟨0, _⟩ => show win1_1.index t (0 : Fin 1) * 64 + 1 * q.val = q.val; rw [e2]; omega

/-- What point t writes back is block t of the activation of the biased array. -/
theorem flushed_eq1 (c : Dev nD) (t : Fin cfg1.N) :
    (dat1 V c).flushed 2 t = ((cfg1.win 2).blk t).view.read (Elt Ideal) (elu (bias (V c main_v43) (V c main_arg4))) := by
  show (cfg1.win 2).cut (grid1.coords t) ((dat1 V c).after 2 t) = _
  rw [after1_2]
  unfold out1_2
  rw [View.canon_unit_zero zero_offsets2]
  simp only [View.ld_unit_zero (S := S10000x64) zero_offsets2, View.ld_unit_zero (S := S64) zero_offsets1]
  obtain ⟨-, -, -, e4, e5⟩ := index_facts1 t
  funext j
  obtain ⟨p, q, rfl⟩ : ∃ (p : Fin 10000) (q : Fin 64), j = ix2 p q := ⟨j 0, j 1, eq_ix2 j⟩
  have ht : t.val < 10 := lt_of_lt_of_eq t.isLt N_1
  have hr : 10000 * t.val + p.val < 100000 := by omega
  have hemb : ((cfg1.win 2).blk t).view.emb (ix2 p q) = ix2 (⟨10000 * t.val + p.val, hr⟩ : Fin 100000) q := by
    funext a; apply Fin.ext
    match a with
    | ⟨0, _⟩ => show win1_2.index t (0 : Fin 2) * 10000 + 1 * p.val = 10000 * t.val + p.val; rw [e4]; omega
    | ⟨1, _⟩ => show win1_2.index t (1 : Fin 2) * 64 + 1 * q.val = q.val; rw [e5]; omega
  show k1_pay1 (iblk1 V c 0 t) (iblk1 V c 1 t) (ix2 p q) = (elu (bias (V c main_v43) (V c main_arg4))) (((cfg1.win 2).blk t).view.emb (ix2 p q))
  rw [hemb]
  refine (tile_act_apply (iblk1 V c 0 t) (iblk1 V c 1 t) p q).trans ?_
  refine Eq.trans ?_ (elu_bias_apply (V c main_v43) (V c main_arg4) ⟨10000 * t.val + p.val, hr⟩ q).symm
  rw [left_block1 V c t p q ⟨_, hr⟩ rfl, vec_block1 V c t q]

/-- An index of the output is in point t's block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v44).slice (win1_2.rect t)).set ↔ _
  rw [View.set_slice_whole, Rect.mem_set_unit]
  exact Iff.rfl

/-- Every index of the output is in the block of the point its row falls to, row / 10000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, e4, e5⟩ := index_facts1 t
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 64 ≤ (i 1).val ∧ (i 1).val < win1_2.index t (1 : Fin 2) * 64 + 64; rw [e5]; omega

/-- The array the region leaves is the activation of the biased array. -/
theorem act1 (c : Dev nD) : (dat1 (F := Ideal) V c).arrAt 2 cfg1.N = Cert.Gcn.elu (bias (V c main_v43) (V c main_arg4)) :=
  (dat1 V c).arrAt_eq_of_cover 2 (elu (bias (V c main_v43) (V c main_arg4))) (fun t _ => flushed_eq1 V c t) cover1

end Cert.Gcn.Regions

end
-- ==== Proof.Region2.lean ====
/-
  Region 2: a matrix product. The array its ten points leave is the whole product of the two arrays it reads.

  Point t multiplies rows 10000·t … 10000·t + 9999 of the left array by the whole right array and writes the result to the
  same rows of the output; the ten blocks of rows tile the output, so the output ends as the product, row by row.
-/
import proofs.«160761_j24318104830697_1_alg».proof.Proof.RegionPay
import proofs.«160761_j24318104830697_1_alg».proof.Proof.Gen.KernelIdeal.Frame
import Idealize.ShloMosaic.Lib.Pipeline.Value

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The printed index maps over the grid: the left and the output windows' block index is (t, 0), the right window's (0, 0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the left window's block at point t is entry (10000·t + p, k) of the left array. -/
theorem left_block2 (c : Dev nD) (t : Fin cfg2.N) (p : Fin 10000) (k : Fin 64) (r : Fin 100000) (hr : r.val = 10000 * t.val + p.val) :
    (iblk2 V c 0 t : Vec Ideal S10000x64 .f32) (ix2 p k) = (V c main_v44 : FVec Ideal S100000x64 .f32) (ix2 r k) := by
  obtain ⟨e0, e1, -⟩ := index_facts2 t
  unfold iblk2
  rw [View.read_apply]
  show V c main_v44 _ = V c main_v44 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 64 + 1 * k.val = k.val; rw [e1]; omega

/-- The right window's block at every point is the whole right array. -/
theorem right_block2 (c : Dev nD) (t : Fin cfg2.N) (k : Fin 64) (q : Fin 64) :
    (iblk2 V c 1 t : Vec Ideal S64x64 .f32) (ix2 k q) = (V c main_arg5 : FVec Ideal S64x64 .f32) (ix2 k q) := by
  obtain ⟨-, -, e2, e3, -⟩ := index_facts2 t
  unfold iblk2
  rw [View.read_apply]
  show V c main_arg5 _ = V c main_arg5 _
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- What point t writes back is block t of the product of the two arrays. -/
theorem flushed_eq2 (c : Dev nD) (t : Fin cfg2.N) :
    (dat2 V c).flushed 2 t = ((cfg2.win 2).blk t).view.read (Elt Ideal) (lin (V c main_v44) (V c main_arg5)) := by
  show (cfg2.win 2).cut (grid2.coords t) ((dat2 V c).after 2 t) = _
  rw [after2_2]
  unfold out2_2
  rw [View.canon_unit_zero zero_offsets2]
  simp only [View.ld_unit_zero (S := S10000x64) zero_offsets2, View.ld_unit_zero (S := S64x64) zero_offsets2]
  obtain ⟨-, -, -, -, e4, e5⟩ := index_facts2 t
  funext j
  obtain ⟨p, q, rfl⟩ : ∃ (p : Fin 10000) (q : Fin 64), j = ix2 p q := ⟨j 0, j 1, eq_ix2 j⟩
  have ht : t.val < 10 := lt_of_lt_of_eq t.isLt N_2
  have hr : 10000 * t.val + p.val < 100000 := by omega
  have hemb : ((cfg2.win 2).blk t).view.emb (ix2 p q) = ix2 (⟨10000 * t.val + p.val, hr⟩ : Fin 100000) q := by
    funext a; apply Fin.ext
    match a with
    | ⟨0, _⟩ => show win2_2.index t (0 : Fin 2) * 10000 + 1 * p.val = 10000 * t.val + p.val; rw [e4]; omega
    | ⟨1, _⟩ => show win2_2.index t (1 : Fin 2) * 64 + 1 * q.val = q.val; rw [e5]; omega
  show k2_pay1 (iblk2 V c 0 t) (iblk2 V c 1 t) (ix2 p q) = lin (V c main_v44) (V c main_arg5) (((cfg2.win 2).blk t).view.emb (ix2 p q))
  rw [hemb]
  refine (tile_product_apply2 (iblk2 V c 0 t) (iblk2 V c 1 t) p q).trans ?_
  refine Eq.trans ?_ (lin_apply (V c main_v44) (V c main_arg5) ⟨10000 * t.val + p.val, hr⟩ q).symm
  exact Finset.sum_congr rfl fun k _ => by rw [left_block2 V c t p k ⟨_, hr⟩ rfl, right_block2 V c t k q]

/-- An index of the output is in point t's block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- Every index of the output is in the block of the point its row falls to, row / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := index_facts2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; rw [e4, ht]; omega
  | ⟨1, _⟩ => show win2_2.index t (1 : Fin 2) * 64 ≤ (i 1).val ∧ (i 1).val < win2_2.index t (1 : Fin 2) * 64 + 64; rw [e5]; omega

/-- The array the region leaves is the product of the two arrays it reads. -/
theorem lin2 (c : Dev nD) : (dat2 (F := Ideal) V c).arrAt 2 cfg2.N = Cert.Gcn.lin (V c main_v44) (V c main_arg5) :=
  (dat2 V c).arrAt_eq_of_cover 2 (lin (V c main_v44) (V c main_arg5)) (fun t _ => flushed_eq2 V c t) cover2

end Cert.Gcn.Regions

end
-- ==== Proof.Region3.lean ====
/-
  Region 3: the bias and the activation. The array its ten points leave is the activation of (the array it reads plus
  the bias vector on every row).

  Point t reads rows 10000·t … 10000·t + 9999 of the array and the whole vector and writes the result to the same rows of
  the output; the ten blocks of rows tile the output, so the output ends as the whole-array function, entry by entry.
-/
import proofs.«160761_j24318104830697_1_alg».proof.Proof.RegionPay
import proofs.«160761_j24318104830697_1_alg».proof.Proof.Gen.KernelIdeal.Frame
import Idealize.ShloMosaic.Lib.Pipeline.Value

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The printed index maps over the grid: the array's and the output's windows' block index is (t, 0), the vector's 0. -/
theorem index_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Entry (p, k) of the array window's block at point t is entry (10000·t + p, k) of the array. -/
theorem left_block3 (c : Dev nD) (t : Fin cfg3.N) (p : Fin 10000) (k : Fin 64) (r : Fin 100000) (hr : r.val = 10000 * t.val + p.val) :
    (iblk3 V c 0 t : Vec Ideal S10000x64 .f32) (ix2 p k) = (V c main_v58 : FVec Ideal S100000x64 .f32) (ix2 r k) := by
  obtain ⟨e0, e1, -⟩ := index_facts3 t
  unfold iblk3
  rw [View.read_apply]
  show V c main_v58 _ = V c main_v58 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- The vector window's block at every point is the whole vector. -/
theorem vec_block3 (c : Dev nD) (t : Fin cfg3.N) (q : Fin 64) :
    (iblk3 V c 1 t : Vec Ideal S64 .f32) (ix1 q) = (V c main_arg6 : FVec Ideal S64 .f32) (ix1 q) := by
  obtain ⟨-, -, e2, -⟩ := index_facts3 t
  unfold iblk3
  rw [View.read_apply]
  show V c main_arg6 _ = V c main_arg6 _
  congr 1
  funext a
  apply Fin.ext
  match a with
  | ⟨0, _⟩ => show win3_1.index t (0 : Fin 1) * 64 + 1 * q.val = q.val; rw [e2]; omega

/-- What point t writes back is block t of the activation of the biased array. -/
theorem flushed_eq3 (c : Dev nD) (t : Fin cfg3.N) :
    (dat3 V c).flushed 2 t = ((cfg3.win 2).blk t).view.read (Elt Ideal) (elu (bias (V c main_v58) (V c main_arg6))) := by
  show (cfg3.win 2).cut (grid3.coords t) ((dat3 V c).after 2 t) = _
  rw [after3_2]
  unfold out3_2
  rw [View.canon_unit_zero zero_offsets2]
  simp only [View.ld_unit_zero (S := S10000x64) zero_offsets2, View.ld_unit_zero (S := S64) zero_offsets1]
  obtain ⟨-, -, -, e4, e5⟩ := index_facts3 t
  funext j
  obtain ⟨p, q, rfl⟩ : ∃ (p : Fin 10000) (q : Fin 64), j = ix2 p q := ⟨j 0, j 1, eq_ix2 j⟩
  have ht : t.val < 10 := lt_of_lt_of_eq t.isLt N_3
  have hr : 10000 * t.val + p.val < 100000 := by omega
  have hemb : ((cfg3.win 2).blk t).view.emb (ix2 p q) = ix2 (⟨10000 * t.val + p.val, hr⟩ : Fin 100000) q := by
    funext a; apply Fin.ext
    match a with
    | ⟨0, _⟩ => show win3_2.index t (0 : Fin 2) * 10000 + 1 * p.val = 10000 * t.val + p.val; rw [e4]; omega
    | ⟨1, _⟩ => show win3_2.index t (1 : Fin 2) * 64 + 1 * q.val = q.val; rw [e5]; omega
  show k3_pay1 (iblk3 V c 0 t) (iblk3 V c 1 t) (ix2 p q) = (elu (bias (V c main_v58) (V c main_arg6))) (((cfg3.win 2).blk t).view.emb (ix2 p q))
  rw [hemb]
  refine (tile_act_apply3 (iblk3 V c 0 t) (iblk3 V c 1 t) p q).trans ?_
  refine Eq.trans ?_ (elu_bias_apply (V c main_v58) (V c main_arg6) ⟨10000 * t.val + p.val, hr⟩ q).symm
  rw [left_block3 V c t p q ⟨_, hr⟩ rfl, vec_block3 V c t q]

/-- An index of the output is in point t's block iff each coordinate is in the block's range on its axis. -/
theorem mem_block3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v59).slice (win3_2.rect t)).set ↔ _
  rw [View.set_slice_whole, Rect.mem_set_unit]
  exact Iff.rfl

/-- Every index of the output is in the block of the point its row falls to, row / 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, e4, e5⟩ := index_facts3 t
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; rw [e4, ht]; omega
  | ⟨1, _⟩ => show win3_2.index t (1 : Fin 2) * 64 ≤ (i 1).val ∧ (i 1).val < win3_2.index t (1 : Fin 2) * 64 + 64; rw [e5]; omega

/-- The array the region leaves is the activation of the biased array. -/
theorem act3 (c : Dev nD) : (dat3 (F := Ideal) V c).arrAt 2 cfg3.N = Cert.Gcn.elu (bias (V c main_v58) (V c main_arg6)) :=
  (dat3 V c).arrAt_eq_of_cover 2 (elu (bias (V c main_v58) (V c main_arg6))) (fun t _ => flushed_eq3 V c t) cover3

end Cert.Gcn.Regions

end
-- ==== Proof.Region4.lean ====
/-
  Region 4: a matrix product. The array its ten points leave is the whole product of the two arrays it reads.

  Point t multiplies rows 10000·t … 10000·t + 9999 of the left array by the whole right array and writes the result to the
  same rows of the output; the ten blocks of rows tile the output, so the output ends as the product, row by row.
-/
import proofs.«160761_j24318104830697_1_alg».proof.Proof.RegionPay
import proofs.«160761_j24318104830697_1_alg».proof.Proof.Gen.KernelIdeal.Frame
import Idealize.ShloMosaic.Lib.Pipeline.Value

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The printed index maps over the grid: the left and the output windows' block index is (t, 0), the right window's (0, 0). -/
theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, k) of the left window's block at point t is entry (10000·t + p, k) of the left array. -/
theorem left_block4 (c : Dev nD) (t : Fin cfg4.N) (p : Fin 10000) (k : Fin 64) (r : Fin 100000) (hr : r.val = 10000 * t.val + p.val) :
    (iblk4 V c 0 t : Vec Ideal S10000x64 .f32) (ix2 p k) = (V c main_v59 : FVec Ideal S100000x64 .f32) (ix2 r k) := by
  obtain ⟨e0, e1, -⟩ := index_facts4 t
  unfold iblk4
  rw [View.read_apply]
  show V c main_v59 _ = V c main_v59 _
  congr 1
  funext a
  apply Fin.ext
  match a with
  | ⟨0, _⟩ => show win4_0.index t (0 : Fin 2) * 10000 + 1 * p.val = r.val; rw [e0, hr]; omega
  | ⟨1, _⟩ => show win4_0.index t (1 : Fin 2) * 64 + 1 * k.val = k.val; rw [e1]; omega

/-- The right window's block at every point is the whole right array. -/
theorem right_block4 (c : Dev nD) (t : Fin cfg4.N) (k : Fin 64) (q : Fin 64) :
    (iblk4 V c 1 t : Vec Ideal S64x64 .f32) (ix2 k q) = (V c main_arg7 : FVec Ideal S64x64 .f32) (ix2 k q) := by
  obtain ⟨-, -, e2, e3, -⟩ := index_facts4 t
  unfold iblk4
  rw [View.read_apply]
  show V c main_arg7 _ = V c main_arg7 _
  congr 1
  funext a
  apply Fin.ext
  match a with
  | ⟨0, _⟩ => show win4_1.index t (0 : Fin 2) * 64 + 1 * k.val = k.val; rw [e2]; omega
  | ⟨1, _⟩ => show win4_1.index t (1 : Fin 2) * 64 + 1 * q.val = q.val; rw [e3]; omega

/-- What point t writes back is block t of the product of the two arrays. -/
theorem flushed_eq4 (c : Dev nD) (t : Fin cfg4.N) :
    (dat4 V c).flushed 2 t = ((cfg4.win 2).blk t).view.read (Elt Ideal) (lin (V c main_v59) (V c main_arg7)) := by
  show (cfg4.win 2).cut (grid4.coords t) ((dat4 V c).after 2 t) = _
  rw [after4_2]
  unfold out4_2
  rw [View.canon_unit_zero zero_offsets2]
  simp only [View.ld_unit_zero (S := S10000x64) zero_offsets2, View.ld_unit_zero (S := S64x64) zero_offsets2]
  obtain ⟨-, -, -, -, e4, e5⟩ := index_facts4 t
  funext j
  obtain ⟨p, q, rfl⟩ : ∃ (p : Fin 10000) (q : Fin 64), j = ix2 p q := ⟨j 0, j 1, eq_ix2 j⟩
  have ht : t.val < 10 := lt_of_lt_of_eq t.isLt N_4
  have hr : 10000 * t.val + p.val < 100000 := by omega
  have hemb : ((cfg4.win 2).blk t).view.emb (ix2 p q) = ix2 (⟨10000 * t.val + p.val, hr⟩ : Fin 100000) q := by
    funext a; apply Fin.ext
    match a with
    | ⟨0, _⟩ => show win4_2.index t (0 : Fin 2) * 10000 + 1 * p.val = 10000 * t.val + p.val; rw [e4]; omega
    | ⟨1, _⟩ => show win4_2.index t (1 : Fin 2) * 64 + 1 * q.val = q.val; rw [e5]; omega
  show k4_pay1 (iblk4 V c 0 t) (iblk4 V c 1 t) (ix2 p q) = lin (V c main_v59) (V c main_arg7) (((cfg4.win 2).blk t).view.emb (ix2 p q))
  rw [hemb]
  refine (tile_product_apply4 (iblk4 V c 0 t) (iblk4 V c 1 t) p q).trans ?_
  refine Eq.trans ?_ (lin_apply (V c main_v59) (V c main_arg7) ⟨10000 * t.val + p.val, hr⟩ q).symm
  exact Finset.sum_congr rfl fun k _ => by rw [left_block4 V c t p k ⟨_, hr⟩ rfl, right_block4 V c t k q]

/-- An index of the output is in point t's block iff each coordinate is in the block's range on its axis. -/
theorem mem_block4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v60).slice (win4_2.rect t)).set ↔ _
  rw [View.set_slice_whole, Rect.mem_set_unit]
  exact Iff.rfl

/-- Every index of the output is in the block of the point its row falls to, row / 10000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, e4, e5⟩ := index_facts4 t
  refine ⟨t, flush4_2 t, ?_⟩
  rw [mem_block4]
  intro a
  match a with
  | ⟨0, _⟩ => show win4_2.index t (0 : Fin 2) * 10000 ≤ (i 0).val ∧ (i 0).val < win4_2.index t (0 : Fin 2) * 10000 + 10000; rw [e4, ht]; omega
  | ⟨1, _⟩ => show win4_2.index t (1 : Fin 2) * 64 ≤ (i 1).val ∧ (i 1).val < win4_2.index t (1 : Fin 2) * 64 + 64; rw [e5]; omega

/-- The array the region leaves is the product of the two arrays it reads. -/
theorem lin4 (c : Dev nD) : (dat4 (F := Ideal) V c).arrAt 2 cfg4.N = Cert.Gcn.lin (V c main_v59) (V c main_arg7) :=
  (dat4 V c).arrAt_eq_of_cover 2 (lin (V c main_v59) (V c main_arg7)) (fun t _ => flushed_eq4 V c t) cover4

end Cert.Gcn.Regions

end
-- ==== Proof.Region5.lean ====
/-
  Region 5: the bias and the activation. The array its ten points leave is the activation of (the array it reads plus
  the bias vector on every row).

  Point t reads rows 10000·t … 10000·t + 9999 of the array and the whole vector and writes the result to the same rows of
  the output; the ten blocks of rows tile the output, so the output ends as the whole-array function, entry by entry.
-/
import proofs.«160761_j24318104830697_1_alg».proof.Proof.RegionPay
import proofs.«160761_j24318104830697_1_alg».proof.Proof.Gen.KernelIdeal.Frame
import Idealize.ShloMosaic.Lib.Pipeline.Value

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The printed index maps over the grid: the array's and the output's windows' block index is (t, 0), the vector's 0. -/
theorem index_facts5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- Entry (p, k) of the array window's block at point t is entry (10000·t + p, k) of the array. -/
theorem left_block5 (c : Dev nD) (t : Fin cfg5.N) (p : Fin 10000) (k : Fin 64) (r : Fin 100000) (hr : r.val = 10000 * t.val + p.val) :
    (iblk5 V c 0 t : Vec Ideal S10000x64 .f32) (ix2 p k) = (V c main_v73 : FVec Ideal S100000x64 .f32) (ix2 r k) := by
  obtain ⟨e0, e1, -⟩ := index_facts5 t
  unfold iblk5
  rw [View.read_apply]
  show V c main_v73 _ = V c main_v73 _
  congr 1
  funext a
  apply Fin.ext
  match a with
  | ⟨0, _⟩ => show win5_0.index t (0 : Fin 2) * 10000 + 1 * p.val = r.val; rw [e0, hr]; omega
  | ⟨1, _⟩ => show win5_0.index t (1 : Fin 2) * 64 + 1 * k.val = k.val; rw [e1]; omega

/-- The vector window's block at every point is the whole vector. -/
theorem vec_block5 (c : Dev nD) (t : Fin cfg5.N) (q : Fin 64) :
    (iblk5 V c 1 t : Vec Ideal S64 .f32) (ix1 q) = (V c main_arg8 : FVec Ideal S64 .f32) (ix1 q) := by
  obtain ⟨-, -, e2, -⟩ := index_facts5 t
  unfold iblk5
  rw [View.read_apply]
  show V c main_arg8 _ = V c main_arg8 _
  congr 1
  funext a
  apply Fin.ext
  match a with
  | ⟨0, _⟩ => show win5_1.index t (0 : Fin 1) * 64 + 1 * q.val = q.val; rw [e2]; omega

/-- What point t writes back is block t of the activation of the biased array. -/
theorem flushed_eq5 (c : Dev nD) (t : Fin cfg5.N) :
    (dat5 V c).flushed 2 t = ((cfg5.win 2).blk t).view.read (Elt Ideal) (elu (bias (V c main_v73) (V c main_arg8))) := by
  show (cfg5.win 2).cut (grid5.coords t) ((dat5 V c).after 2 t) = _
  rw [after5_2]
  unfold out5_2
  rw [View.canon_unit_zero zero_offsets2]
  simp only [View.ld_unit_zero (S := S10000x64) zero_offsets2, View.ld_unit_zero (S := S64) zero_offsets1]
  obtain ⟨-, -, -, e4, e5⟩ := index_facts5 t
  funext j
  obtain ⟨p, q, rfl⟩ : ∃ (p : Fin 10000) (q : Fin 64), j = ix2 p q := ⟨j 0, j 1, eq_ix2 j⟩
  have ht : t.val < 10 := lt_of_lt_of_eq t.isLt N_5
  have hr : 10000 * t.val + p.val < 100000 := by omega
  have hemb : ((cfg5.win 2).blk t).view.emb (ix2 p q) = ix2 (⟨10000 * t.val + p.val, hr⟩ : Fin 100000) q := by
    funext a; apply Fin.ext
    match a with
    | ⟨0, _⟩ => show win5_2.index t (0 : Fin 2) * 10000 + 1 * p.val = 10000 * t.val + p.val; rw [e4]; omega
    | ⟨1, _⟩ => show win5_2.index t (1 : Fin 2) * 64 + 1 * q.val = q.val; rw [e5]; omega
  show k5_pay1 (iblk5 V c 0 t) (iblk5 V c 1 t) (ix2 p q) = (elu (bias (V c main_v73) (V c main_arg8))) (((cfg5.win 2).blk t).view.emb (ix2 p q))
  rw [hemb]
  refine (tile_act_apply5 (iblk5 V c 0 t) (iblk5 V c 1 t) p q).trans ?_
  refine Eq.trans ?_ (elu_bias_apply (V c main_v73) (V c main_arg8) ⟨10000 * t.val + p.val, hr⟩ q).symm
  rw [left_block5 V c t p q ⟨_, hr⟩ rfl, vec_block5 V c t q]

/-- An index of the output is in point t's block iff each coordinate is in the block's range on its axis. -/
theorem mem_block5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v74).slice (win5_2.rect t)).set ↔ _
  rw [View.set_slice_whole, Rect.mem_set_unit]
  exact Iff.rfl

/-- Every index of the output is in the block of the point its row falls to, row / 10000. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨-, -, -, e4, e5⟩ := index_facts5 t
  refine ⟨t, flush5_2 t, ?_⟩
  rw [mem_block5]
  intro a
  match a with
  | ⟨0, _⟩ => show win5_2.index t (0 : Fin 2) * 10000 ≤ (i 0).val ∧ (i 0).val < win5_2.index t (0 : Fin 2) * 10000 + 10000; rw [e4, ht]; omega
  | ⟨1, _⟩ => show win5_2.index t (1 : Fin 2) * 64 ≤ (i 1).val ∧ (i 1).val < win5_2.index t (1 : Fin 2) * 64 + 64; rw [e5]; omega

/-- The array the region leaves is the activation of the biased array. -/
theorem act5 (c : Dev nD) : (dat5 (F := Ideal) V c).arrAt 2 cfg5.N = Cert.Gcn.elu (bias (V c main_v73) (V c main_arg8)) :=
  (dat5 V c).arrAt_eq_of_cover 2 (elu (bias (V c main_v73) (V c main_arg8))) (fun t _ => flushed_eq5 V c t) cover5

end Cert.Gcn.Regions

end
-- ==== Proof.Region6.lean ====
/-
  Region 6: a matrix product. The array its ten points leave is the whole product of the two arrays it reads.

  Point t multiplies rows 10000·t … 10000·t + 9999 of the left array by the whole right array and writes the result to the
  same rows of the output; the ten blocks of rows tile the output, so the output ends as the product, row by row.
-/
import proofs.«160761_j24318104830697_1_alg».proof.Proof.RegionPay
import proofs.«160761_j24318104830697_1_alg».proof.Proof.Gen.KernelIdeal.Frame
import Idealize.ShloMosaic.Lib.Pipeline.Value

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The printed index maps over the grid: the left and the output windows' block index is (t, 0), the right window's (0, 0). -/
theorem index_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry (p, k) of the left window's block at point t is entry (10000·t + p, k) of the left array. -/
theorem left_block6 (c : Dev nD) (t : Fin cfg6.N) (p : Fin 10000) (k : Fin 64) (r : Fin 100000) (hr : r.val = 10000 * t.val + p.val) :
    (iblk6 V c 0 t : Vec Ideal S10000x64 .f32) (ix2 p k) = (V c main_v74 : FVec Ideal S100000x64 .f32) (ix2 r k) := by
  obtain ⟨e0, e1, -⟩ := index_facts6 t
  unfold iblk6
  rw [View.read_apply]
  show V c main_v74 _ = V c main_v74 _
  congr 1
  funext a
  apply Fin.ext
  match a with
  | ⟨0, _⟩ => show win6_0.index t (0 : Fin 2) * 10000 + 1 * p.val = r.val; rw [e0, hr]; omega
  | ⟨1, _⟩ => show win6_0.index t (1 : Fin 2) * 64 + 1 * k.val = k.val; rw [e1]; omega

/-- The right window's block at every point is the whole right array. -/
theorem right_block6 (c : Dev nD) (t : Fin cfg6.N) (k : Fin 64) (q : Fin 64) :
    (iblk6 V c 1 t : Vec Ideal S64x64 .f32) (ix2 k q) = (V c main_arg9 : FVec Ideal S64x64 .f32) (ix2 k q) := by
  obtain ⟨-, -, e2, e3, -⟩ := index_facts6 t
  unfold iblk6
  rw [View.read_apply]
  show V c main_arg9 _ = V c main_arg9 _
  congr 1
  funext a
  apply Fin.ext
  match a with
  | ⟨0, _⟩ => show win6_1.index t (0 : Fin 2) * 64 + 1 * k.val = k.val; rw [e2]; omega
  | ⟨1, _⟩ => show win6_1.index t (1 : Fin 2) * 64 + 1 * q.val = q.val; rw [e3]; omega

/-- What point t writes back is block t of the product of the two arrays. -/
theorem flushed_eq6 (c : Dev nD) (t : Fin cfg6.N) :
    (dat6 V c).flushed 2 t = ((cfg6.win 2).blk t).view.read (Elt Ideal) (lin (V c main_v74) (V c main_arg9)) := by
  show (cfg6.win 2).cut (grid6.coords t) ((dat6 V c).after 2 t) = _
  rw [after6_2]
  unfold out6_2
  rw [View.canon_unit_zero zero_offsets2]
  simp only [View.ld_unit_zero (S := S10000x64) zero_offsets2, View.ld_unit_zero (S := S64x64) zero_offsets2]
  obtain ⟨-, -, -, -, e4, e5⟩ := index_facts6 t
  funext j
  obtain ⟨p, q, rfl⟩ : ∃ (p : Fin 10000) (q : Fin 64), j = ix2 p q := ⟨j 0, j 1, eq_ix2 j⟩
  have ht : t.val < 10 := lt_of_lt_of_eq t.isLt N_6
  have hr : 10000 * t.val + p.val < 100000 := by omega
  have hemb : ((cfg6.win 2).blk t).view.emb (ix2 p q) = ix2 (⟨10000 * t.val + p.val, hr⟩ : Fin 100000) q := by
    funext a; apply Fin.ext
    match a with
    | ⟨0, _⟩ => show win6_2.index t (0 : Fin 2) * 10000 + 1 * p.val = 10000 * t.val + p.val; rw [e4]; omega
    | ⟨1, _⟩ => show win6_2.index t (1 : Fin 2) * 64 + 1 * q.val = q.val; rw [e5]; omega
  show k6_pay1 (iblk6 V c 0 t) (iblk6 V c 1 t) (ix2 p q) = lin (V c main_v74) (V c main_arg9) (((cfg6.win 2).blk t).view.emb (ix2 p q))
  rw [hemb]
  refine (tile_product_apply6 (iblk6 V c 0 t) (iblk6 V c 1 t) p q).trans ?_
  refine Eq.trans ?_ (lin_apply (V c main_v74) (V c main_arg9) ⟨10000 * t.val + p.val, hr⟩ q).symm
  exact Finset.sum_congr rfl fun k _ => by rw [left_block6 V c t p k ⟨_, hr⟩ rfl, right_block6 V c t k q]

/-- An index of the output is in point t's block iff each coordinate is in the block's range on its axis. -/
theorem mem_block6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v75).slice (win6_2.rect t)).set ↔ _
  rw [View.set_slice_whole, Rect.mem_set_unit]
  exact Iff.rfl

/-- Every index of the output is in the block of the point its row falls to, row / 10000. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨-, -, -, -, e4, e5⟩ := index_facts6 t
  refine ⟨t, flush6_2 t, ?_⟩
  rw [mem_block6]
  intro a
  match a with
  | ⟨0, _⟩ => show win6_2.index t (0 : Fin 2) * 10000 ≤ (i 0).val ∧ (i 0).val < win6_2.index t (0 : Fin 2) * 10000 + 10000; rw [e4, ht]; omega
  | ⟨1, _⟩ => show win6_2.index t (1 : Fin 2) * 64 ≤ (i 1).val ∧ (i 1).val < win6_2.index t (1 : Fin 2) * 64 + 64; rw [e5]; omega

/-- The array the region leaves is the product of the two arrays it reads. -/
theorem lin6 (c : Dev nD) : (dat6 (F := Ideal) V c).arrAt 2 cfg6.N = Cert.Gcn.lin (V c main_v74) (V c main_arg9) :=
  (dat6 V c).arrAt_eq_of_cover 2 (lin (V c main_v74) (V c main_arg9)) (fun t _ => flushed_eq6 V c t) cover6

end Cert.Gcn.Regions

end
-- ==== Proof.Region7.lean ====
/-
  Region 7: the bias. The array its ten points leave is the array it reads plus the bias vector on every row.

  Point t reads rows 10000·t … 10000·t + 9999 of the array and the whole vector and writes the result to the same rows of
  the output; the ten blocks of rows tile the output, so the output ends as the whole-array function, entry by entry.
-/
import proofs.«160761_j24318104830697_1_alg».proof.Proof.RegionPay
import proofs.«160761_j24318104830697_1_alg».proof.Proof.Gen.KernelIdeal.Frame
import Idealize.ShloMosaic.Lib.Pipeline.Value

noncomputable section

namespace Cert.Gcn.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The printed index maps over the grid: the array's and the output's windows' block index is (t, 0), the vector's 0. -/
theorem index_facts7 : ∀ t : Fin cfg7.N, win7_0.index t (0 : Fin 2) = t.val ∧ win7_0.index t (1 : Fin 2) = 0
    ∧ win7_1.index t (0 : Fin 1) = 0
    ∧ win7_2.index t (0 : Fin 2) = t.val ∧ win7_2.index t (1 : Fin 2) = 0 :=
  (by decide +kernel : ∀ t : Fin grid7.N, _)

/-- Entry (p, k) of the array window's block at point t is entry (10000·t + p, k) of the array. -/
theorem left_block7 (c : Dev nD) (t : Fin cfg7.N) (p : Fin 10000) (k : Fin 64) (r : Fin 100000) (hr : r.val = 10000 * t.val + p.val) :
    (iblk7 V c 0 t : Vec Ideal S10000x64 .f32) (ix2 p k) = (V c main_v88 : FVec Ideal S100000x64 .f32) (ix2 r k) := by
  obtain ⟨e0, e1, -⟩ := index_facts7 t
  unfold iblk7
  rw [View.read_apply]
  show V c main_v88 _ = V c main_v88 _
  congr 1
  funext a
  apply Fin.ext
  match a with
  | ⟨0, _⟩ => show win7_0.index t (0 : Fin 2) * 10000 + 1 * p.val = r.val; rw [e0, hr]; omega
  | ⟨1, _⟩ => show win7_0.index t (1 : Fin 2) * 64 + 1 * k.val = k.val; rw [e1]; omega

/-- The vector window's block at every point is the whole vector. -/
theorem vec_block7 (c : Dev nD) (t : Fin cfg7.N) (q : Fin 64) :
    (iblk7 V c 1 t : Vec Ideal S64 .f32) (ix1 q) = (V c main_arg10 : FVec Ideal S64 .f32) (ix1 q) := by
  obtain ⟨-, -, e2, -⟩ := index_facts7 t
  unfold iblk7
  rw [View.read_apply]
  show V c main_arg10 _ = V c main_arg10 _
  congr 1
  funext a
  apply Fin.ext
  match a with
  | ⟨0, _⟩ => show win7_1.index t (0 : Fin 1) * 64 + 1 * q.val = q.val; rw [e2]; omega

/-- What point t writes back is block t of the biased array. -/
theorem flushed_eq7 (c : Dev nD) (t : Fin cfg7.N) :
    (dat7 V c).flushed 2 t = ((cfg7.win 2).blk t).view.read (Elt Ideal) (bias (V c main_v88) (V c main_arg10)) := by
  show (cfg7.win 2).cut (grid7.coords t) ((dat7 V c).after 2 t) = _
  rw [after7_2]
  unfold out7_2
  rw [View.canon_unit_zero zero_offsets2]
  simp only [View.ld_unit_zero (S := S10000x64) zero_offsets2, View.ld_unit_zero (S := S64) zero_offsets1]
  obtain ⟨-, -, -, e4, e5⟩ := index_facts7 t
  funext j
  obtain ⟨p, q, rfl⟩ : ∃ (p : Fin 10000) (q : Fin 64), j = ix2 p q := ⟨j 0, j 1, eq_ix2 j⟩
  have ht : t.val < 10 := lt_of_lt_of_eq t.isLt N_7
  have hr : 10000 * t.val + p.val < 100000 := by omega
  have hemb : ((cfg7.win 2).blk t).view.emb (ix2 p q) = ix2 (⟨10000 * t.val + p.val, hr⟩ : Fin 100000) q := by
    funext a; apply Fin.ext
    match a with
    | ⟨0, _⟩ => show win7_2.index t (0 : Fin 2) * 10000 + 1 * p.val = 10000 * t.val + p.val; rw [e4]; omega
    | ⟨1, _⟩ => show win7_2.index t (1 : Fin 2) * 64 + 1 * q.val = q.val; rw [e5]; omega
  show k7_pay1 (iblk7 V c 0 t) (iblk7 V c 1 t) (ix2 p q) = (bias (V c main_v88) (V c main_arg10)) (((cfg7.win 2).blk t).view.emb (ix2 p q))
  rw [hemb]
  refine (tile_bias_apply (iblk7 V c 0 t) (iblk7 V c 1 t) p q).trans ?_
  refine Eq.trans ?_ (bias_apply (V c main_v88) (V c main_arg10) ⟨10000 * t.val + p.val, hr⟩ q).symm
  rw [left_block7 V c t p q ⟨_, hr⟩ rfl, vec_block7 V c t q]

/-- An index of the output is in point t's block iff each coordinate is in the block's range on its axis. -/
theorem mem_block7 (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v89).slice (win7_2.rect t)).set ↔ _
  rw [View.set_slice_whole, Rect.mem_set_unit]
  exact Iff.rfl

/-- Every index of the output is in the block of the point its row falls to, row / 10000. -/
theorem cover7 (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  have hN : cfg7.N = 10 := N_7
  obtain ⟨t, ht⟩ : ∃ t : Fin cfg7.N, t.val = (i 0).val / 10000 := ⟨⟨(i 0).val / 10000, by rw [hN]; omega⟩, rfl⟩
  obtain ⟨-, -, -, e4, e5⟩ := index_facts7 t
  refine ⟨t, flush7_2 t, ?_⟩
  rw [mem_block7]
  intro a
  match a with
  | ⟨0, _⟩ => show win7_2.index t (0 : Fin 2) * 10000 ≤ (i 0).val ∧ (i 0).val < win7_2.index t (0 : Fin 2) * 10000 + 10000; rw [e4, ht]; omega
  | ⟨1, _⟩ => show win7_2.index t (1 : Fin 2) * 64 ≤ (i 1).val ∧ (i 1).val < win7_2.index t (1 : Fin 2) * 64 + 64; rw [e5]; omega

/-- The array the region leaves is the biased array. -/
theorem bias7 (c : Dev nD) : (dat7 (F := Ideal) V c).arrAt 2 cfg7.N = Cert.Gcn.bias (V c main_v88) (V c main_arg10) :=
  (dat7 V c).arrAt_eq_of_cover 2 (bias (V c main_v88) (V c main_arg10)) (fun t _ => flushed_eq7 V c t) cover7

end Cert.Gcn.Regions

end
-- ==== Proof.RefRunA.lean ====
/-
  The first window of the reference's @main as a list of host operations: the sixty statements of the first
  half with the calls of the outlined functions replaced by the callee's operations over that call's own buffers
  (the select of the degree normalisation, and the first activation), seventy-six operations in all.
-/
import proofs.«160761_j24318104830697_1_alg».proof.Proof.Spec
import proofs.«160761_j24318104830697_1_alg».proof.Proof.Gen.ReferenceIdeal
import Idealize.ShloMosaic.Lib.StableHlo.Run

noncomputable section

namespace Cert.Gcn.RefRun

open Idealize.ShloMosaic Idealize.ShloMosaic.TcCoe Idealize.SL.Sem Idealize.ShloMosaic.StableHlo Cert.ReferenceIdeal
open Cert.ReferenceIdeal.Facts₀

variable {F : FTy → Type} [FloatOps F]

/-- The first window's 76 operations, in order. -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)),
    StableHlo.unary main_v29 main_v30 (broadcastInDim S1700000x1 ![0] bcast_S1700000_S1700000x1_0 : (⟨S1700000, .f32⟩ : BufTy).Contents (Elt F) → (⟨S1700000x1, .f32⟩ : BufTy).Contents (Elt F)),
    StableHlo.binary main_arg0 main_arg3 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_6 (constantI S_ 32 0#32),
    StableHlo.unary main_c_6 main_v32 (broadcastInDim S1700000 ![] bcast_S_S1700000 : (⟨S_, .i32⟩ : BufTy).Contents (Elt F) → (⟨S1700000, .i32⟩ : BufTy).Contents (Elt F)),
    StableHlo.binary main_v3 main_v32 main_v33 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v34 (broadcastInDim S1700000 ![] bcast_S_S1700000 : (⟨S_, .i32⟩ : BufTy).Contents (Elt F) → (⟨S1700000, .i32⟩ : BufTy).Contents (Elt F)),
    StableHlo.binary main_v3 main_v34 main_v35 (addi : (⟨S1700000, .i32⟩ : BufTy).Contents (Elt F) → (⟨S1700000, .i32⟩ : BufTy).Contents (Elt F) → (⟨S1700000, .i32⟩ : BufTy).Contents (Elt F)),
    StableHlo.ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v36 main_v37 (broadcastInDim S1700000x1 ![0] bcast_S1700000_S1700000x1_0 : (⟨S1700000, .i32⟩ : BufTy).Contents (Elt F) → (⟨S1700000x1, .i32⟩ : BufTy).Contents (Elt F)),
    StableHlo.binary main_v31 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v39 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v38 main_v39 main_v40 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg4 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.nullary main_call1_cst (constant S_ .f32 0x00000000#32),
    StableHlo.unary main_call1_cst main_call1_v0 (broadcastInDim S100000x64 ![] bcast_S_S100000x64 : (⟨S_, .f32⟩ : BufTy).Contents (Elt F) → (⟨S100000x64, .f32⟩ : BufTy).Contents (Elt F)),
    StableHlo.binary main_v46 main_call1_v0 main_call1_v1 (cmpf .ogt : (⟨S100000x64, .f32⟩ : BufTy).Contents (Elt F) → (⟨S100000x64, .f32⟩ : BufTy).Contents (Elt F) → (⟨S100000x64, .i1⟩ : BufTy).Contents (Elt F)),
    StableHlo.nullary main_call1_cst_0 (constant S_ .f32 0x00000000#32),
    StableHlo.unary main_call1_cst_0 main_call1_v2 (broadcastInDim S100000x64 ![] bcast_S_S100000x64 : (⟨S_, .f32⟩ : BufTy).Contents (Elt F) → (⟨S100000x64, .f32⟩ : BufTy).Contents (Elt F)),
    StableHlo.binary main_v46 main_call1_v2 main_call1_v3 (cmpf .ogt : (⟨S100000x64, .f32⟩ : BufTy).Contents (Elt F) → (⟨S100000x64, .f32⟩ : BufTy).Contents (Elt F) → (⟨S100000x64, .i1⟩ : BufTy).Contents (Elt F)),
    StableHlo.nullary main_call1_cst_1 (constant S_ .f32 0x00000000#32),
    StableHlo.unary main_call1_cst_1 main_call1_call0_v0 (id : (⟨S_, .f32⟩ : BufTy).Contents (Elt F) → (⟨S_, .f32⟩ : BufTy).Contents (Elt F)),
    StableHlo.unary main_call1_call0_v0 main_call1_call0_v1 (broadcastInDim S100000x64 ![] bcast_S_S100000x64 : (⟨S_, .f32⟩ : BufTy).Contents (Elt F) → (⟨S100000x64, .f32⟩ : BufTy).Contents (Elt F)),
    StableHlo.ternary main_call1_v3 main_call1_call0_v1 main_v46 main_call1_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.unary main_call1_v4 main_call1_v5 (Host.expm1 : (⟨S100000x64, .f32⟩ : BufTy).Contents (Elt F) → (⟨S100000x64, .f32⟩ : BufTy).Contents (Elt F)),
    StableHlo.nullary main_call1_cst_2 (constant S_ .f32 0x3F800000#32),
    StableHlo.unary main_call1_cst_2 main_call1_v6 (broadcastInDim S100000x64 ![] bcast_S_S100000x64 : (⟨S_, .f32⟩ : BufTy).Contents (Elt F) → (⟨S100000x64, .f32⟩ : BufTy).Contents (Elt F)),
    StableHlo.binary main_call1_v6 main_call1_v5 main_call1_v7 (mulf : (⟨S100000x64, .f32⟩ : BufTy).Contents (Elt F) → (⟨S100000x64, .f32⟩ : BufTy).Contents (Elt F) → (⟨S100000x64, .f32⟩ : BufTy).Contents (Elt F)),
    StableHlo.ternary main_call1_v1 main_v46 main_call1_v7 main_v47 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v47 main_arg5 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

set_option maxRecDepth 8192 in
set_option maxHeartbeats 4000000 in
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

/-- Every operation of the window determines its result. -/
theorem ops0_fresh : ∀ op ∈ (ops0 : List (HloOp τ sig (Elt F))), op.fresh = ∅ := by
  intro _ h; (repeat (cases h with | head => rfl | tail _ h => ?_)); exact nomatch h

/-! ## What the window leaves in the buffers the second window reads

From any contents `V` of the device's buffers: the edge endpoints, the edge weights as a column, and the
second layer's matrix product, each as the specification's function of the arguments' contents; and every
argument unchanged. Each is read off the list operation by operation, and agrees with the specification's
term once its small definitions unfold; the gathers, scatters, products and shape operations stay folded. -/

section Values
variable (V : Valuation τ sig (Elt Ideal))

attribute [local irreducible] Host.scatterAdd Host.gather concatenate extractStridedSlice shapeCast iotaInDim broadcastInDim

set_option maxRecDepth 8192 in
set_option maxHeartbeats 4000000 in
/-- The sources. -/
theorem a_v3 : after (ops0 (F := Ideal)) V (Proc.devRef .tc main_v3) = src (V (Proc.devRef .tc main_arg1)) := by
  after_results_simp
  rfl

set_option maxRecDepth 8192 in
set_option maxHeartbeats 4000000 in
/-- The targets. -/
theorem a_v6 : after (ops0 (F := Ideal)) V (Proc.devRef .tc main_v6) = dst (V (Proc.devRef .tc main_arg1)) := by
  after_results_simp
  rfl

set_option maxRecDepth 8192 in
set_option maxHeartbeats 4000000 in
/-- The edge weights, as a column. -/
theorem a_v30 : after (ops0 (F := Ideal)) V (Proc.devRef .tc main_v30)
    = broadcastInDim S1700000x1 ![0] bcast_S1700000_S1700000x1_0 (nrm (src (V (Proc.devRef .tc main_arg1))) (dst (V (Proc.devRef .tc main_arg1)))) := by
  after_results_simp
  rfl

set_option maxRecDepth 8192 in
set_option maxHeartbeats 8000000 in
/-- The first layer, its activation, and the second layer's matrix product. -/
theorem a_v48 : after (ops0 (F := Ideal)) V (Proc.devRef .tc main_v48)
    = lin (elu (conv (src (V (Proc.devRef .tc main_arg1))) (dst (V (Proc.devRef .tc main_arg1)))
        (nrm (src (V (Proc.devRef .tc main_arg1))) (dst (V (Proc.devRef .tc main_arg1))))
        (V (Proc.devRef .tc main_arg0)) (V (Proc.devRef .tc main_arg3)) (V (Proc.devRef .tc main_arg4))))
        (V (Proc.devRef .tc main_arg5)) := by
  after_results_simp
  rfl

set_option maxRecDepth 8192 in
set_option maxHeartbeats 4000000 in
/-- No operation of this window writes argument 0: it keeps its contents. -/
theorem a_arg0 : after (ops0 (F := Ideal)) V (Proc.devRef .tc main_arg0) = V (Proc.devRef .tc main_arg0) := by
  after_results_simp

set_option maxRecDepth 8192 in
set_option maxHeartbeats 4000000 in
/-- No operation of this window writes argument 1: it keeps its contents. -/
theorem a_arg1 : after (ops0 (F := Ideal)) V (Proc.devRef .tc main_arg1) = V (Proc.devRef .tc main_arg1) := by
  after_results_simp

set_option maxRecDepth 8192 in
set_option maxHeartbeats 4000000 in
/-- No operation of this window writes argument 2: it keeps its contents. -/
theorem a_arg2 : after (ops0 (F := Ideal)) V (Proc.devRef .tc main_arg2) = V (Proc.devRef .tc main_arg2) := by
  after_results_simp

set_option maxRecDepth 8192 in
set_option maxHeartbeats 4000000 in
/-- No operation of this window writes argument 3: it keeps its contents. -/
theorem a_arg3 : after (ops0 (F := Ideal)) V (Proc.devRef .tc main_arg3) = V (Proc.devRef .tc main_arg3) := by
  after_results_simp

set_option maxRecDepth 8192 in
set_option maxHeartbeats 4000000 in
/-- No operation of this window writes argument 4: it keeps its contents. -/
theorem a_arg4 : after (ops0 (F := Ideal)) V (Proc.devRef .tc main_arg4) = V (Proc.devRef .tc main_arg4) := by
  after_results_simp

set_option maxRecDepth 8192 in
set_option maxHeartbeats 4000000 in
/-- No operation of this window writes argument 5: it keeps its contents. -/
theorem a_arg5 : after (ops0 (F := Ideal)) V (Proc.devRef .tc main_arg5) = V (Proc.devRef .tc main_arg5) := by
  after_results_simp

set_option maxRecDepth 8192 in
set_option maxHeartbeats 4000000 in
/-- No operation of this window writes argument 6: it keeps its contents. -/
theorem a_arg6 : after (ops0 (F := Ideal)) V (Proc.devRef .tc main_arg6) = V (Proc.devRef .tc main_arg6) := by
  after_results_simp

set_option maxRecDepth 8192 in
set_option maxHeartbeats 4000000 in
/-- No operation of this window writes argument 7: it keeps its contents. -/
theorem a_arg7 : after (ops0 (F := Ideal)) V (Proc.devRef .tc main_arg7) = V (Proc.devRef .tc main_arg7) := by
  after_results_simp

set_option maxRecDepth 8192 in
set_option maxHeartbeats 4000000 in
/-- No operation of this window writes argument 8: it keeps its contents. -/
theorem a_arg8 : after (ops0 (F := Ideal)) V (Proc.devRef .tc main_arg8) = V (Proc.devRef .tc main_arg8) := by
  after_results_simp

set_option maxRecDepth 8192 in
set_option maxHeartbeats 4000000 in
/-- No operation of this window writes argument 9: it keeps its contents. -/
theorem a_arg9 : after (ops0 (F := Ideal)) V (Proc.devRef .tc main_arg9) = V (Proc.devRef .tc main_arg9) := by
  after_results_simp

set_option maxRecDepth 8192 in
set_option maxHeartbeats 4000000 in
/-- No operation of this window writes argument 10: it keeps its contents. -/
theorem a_arg10 : after (ops0 (F := Ideal)) V (Proc.devRef .tc main_arg10) = V (Proc.devRef .tc main_arg10) := by
  after_results_simp

end Values

end Cert.Gcn.RefRun

end
-- ==== Proof.RefRunB.lean ====
/-
  The second window of the reference's @main as a list of host operations: the fifty-eight statements of the
  second half with the two calls of the activation replaced by the callee's operations over each call's own
  buffers, eighty-six operations in all.
-/
import proofs.«160761_j24318104830697_1_alg».proof.Proof.Spec
import proofs.«160761_j24318104830697_1_alg».proof.Proof.Gen.ReferenceIdeal
import Idealize.ShloMosaic.Lib.StableHlo.Run

noncomputable section

namespace Cert.Gcn.RefRun

open Idealize.ShloMosaic Idealize.ShloMosaic.TcCoe Idealize.SL.Sem Idealize.ShloMosaic.StableHlo Cert.ReferenceIdeal
open Cert.ReferenceIdeal.Facts₀

variable {F : FTy → Type} [FloatOps F]

/-- The second window's 86 operations, in order. -/
abbrev ops1 : List (HloOp τ sig (Elt F)) :=
  [ StableHlo.nullary main_c_9 (constantI S_ 32 0#32),
    StableHlo.unary main_c_9 main_v49 (broadcastInDim S1700000 ![] bcast_S_S1700000 : (⟨S_, .i32⟩ : BufTy).Contents (Elt F) → (⟨S1700000, .i32⟩ : BufTy).Contents (Elt F)),
    StableHlo.binary main_v3 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v51 (broadcastInDim S1700000 ![] bcast_S_S1700000 : (⟨S_, .i32⟩ : BufTy).Contents (Elt F) → (⟨S1700000, .i32⟩ : BufTy).Contents (Elt F)),
    StableHlo.binary main_v3 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_v48 main_v54 main_v55 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v56 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v55 main_v56 main_v57 (mulf : (⟨S1700000x64, .f32⟩ : BufTy).Contents (Elt F) → (⟨S1700000x64, .f32⟩ : BufTy).Contents (Elt F) → (⟨S1700000x64, .f32⟩ : BufTy).Contents (Elt F)),
    StableHlo.nullary main_cst_11 (constant S_ .f32 0x00000000#32),
    StableHlo.unary main_cst_11 main_v58 (broadcastInDim S100000x64 ![] bcast_S_S100000x64 : (⟨S_, .f32⟩ : BufTy).Contents (Elt F) → (⟨S100000x64, .f32⟩ : BufTy).Contents (Elt F)),
    StableHlo.unary main_v6 main_v59 (broadcastInDim S1700000x1 ![0] bcast_S1700000_S1700000x1_0 : (⟨S1700000, .i32⟩ : BufTy).Contents (Elt F) → (⟨S1700000x1, .i32⟩ : BufTy).Contents (Elt F)),
    StableHlo.ternary main_v58 main_v59 main_v57 main_v60 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg6 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)),
    StableHlo.nullary main_call2_cst (constant S_ .f32 0x00000000#32),
    StableHlo.unary main_call2_cst main_call2_v0 (broadcastInDim S100000x64 ![] bcast_S_S100000x64 : (⟨S_, .f32⟩ : BufTy).Contents (Elt F) → (⟨S100000x64, .f32⟩ : BufTy).Contents (Elt F)),
    StableHlo.binary main_v63 main_call2_v0 main_call2_v1 (cmpf .ogt : (⟨S100000x64, .f32⟩ : BufTy).Contents (Elt F) → (⟨S100000x64, .f32⟩ : BufTy).Contents (Elt F) → (⟨S100000x64, .i1⟩ : BufTy).Contents (Elt F)),
    StableHlo.nullary main_call2_cst_0 (constant S_ .f32 0x00000000#32),
    StableHlo.unary main_call2_cst_0 main_call2_v2 (broadcastInDim S100000x64 ![] bcast_S_S100000x64 : (⟨S_, .f32⟩ : BufTy).Contents (Elt F) → (⟨S100000x64, .f32⟩ : BufTy).Contents (Elt F)),
    StableHlo.binary main_v63 main_call2_v2 main_call2_v3 (cmpf .ogt : (⟨S100000x64, .f32⟩ : BufTy).Contents (Elt F) → (⟨S100000x64, .f32⟩ : BufTy).Contents (Elt F) → (⟨S100000x64, .i1⟩ : BufTy).Contents (Elt F)),
    StableHlo.nullary main_call2_cst_1 (constant S_ .f32 0x00000000#32),
    StableHlo.unary main_call2_cst_1 main_call2_call0_v0 (id : (⟨S_, .f32⟩ : BufTy).Contents (Elt F) → (⟨S_, .f32⟩ : BufTy).Contents (Elt F)),
    StableHlo.unary main_call2_call0_v0 main_call2_call0_v1 (broadcastInDim S100000x64 ![] bcast_S_S100000x64 : (⟨S_, .f32⟩ : BufTy).Contents (Elt F) → (⟨S100000x64, .f32⟩ : BufTy).Contents (Elt F)),
    StableHlo.ternary main_call2_v3 main_call2_call0_v1 main_v63 main_call2_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.unary main_call2_v4 main_call2_v5 (Host.expm1 : (⟨S100000x64, .f32⟩ : BufTy).Contents (Elt F) → (⟨S100000x64, .f32⟩ : BufTy).Contents (Elt F)),
    StableHlo.nullary main_call2_cst_2 (constant S_ .f32 0x3F800000#32),
    StableHlo.unary main_call2_cst_2 main_call2_v6 (broadcastInDim S100000x64 ![] bcast_S_S100000x64 : (⟨S_, .f32⟩ : BufTy).Contents (Elt F) → (⟨S100000x64, .f32⟩ : BufTy).Contents (Elt F)),
    StableHlo.binary main_call2_v6 main_call2_v5 main_call2_v7 (mulf : (⟨S100000x64, .f32⟩ : BufTy).Contents (Elt F) → (⟨S100000x64, .f32⟩ : BufTy).Contents (Elt F) → (⟨S100000x64, .f32⟩ : BufTy).Contents (Elt F)),
    StableHlo.ternary main_call2_v1 main_v63 main_call2_v7 main_v64 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v64 main_arg7 main_v65 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_12 (constantI S_ 32 0#32),
    StableHlo.unary main_c_12 main_v66 (broadcastInDim S1700000 ![] bcast_S_S1700000 : (⟨S_, .i32⟩ : BufTy).Contents (Elt F) → (⟨S1700000, .i32⟩ : BufTy).Contents (Elt F)),
    StableHlo.binary main_v3 main_v66 main_v67 (cmpi .slt : (⟨S1700000, .i32⟩ : BufTy).Contents (Elt F) → (⟨S1700000, .i32⟩ : BufTy).Contents (Elt F) → (⟨S1700000, .i1⟩ : BufTy).Contents (Elt F)),
    StableHlo.nullary main_c_13 (constantI S_ 32 100000#32),
    StableHlo.unary main_c_13 main_v68 (broadcastInDim S1700000 ![] bcast_S_S1700000 : (⟨S_, .i32⟩ : BufTy).Contents (Elt F) → (⟨S1700000, .i32⟩ : BufTy).Contents (Elt F)),
    StableHlo.binary main_v3 main_v68 main_v69 (addi : (⟨S1700000, .i32⟩ : BufTy).Contents (Elt F) → (⟨S1700000, .i32⟩ : BufTy).Contents (Elt F) → (⟨S1700000, .i32⟩ : BufTy).Contents (Elt F)),
    StableHlo.ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v70 main_v71 (broadcastInDim S1700000x1 ![0] bcast_S1700000_S1700000x1_0 : (⟨S1700000, .i32⟩ : BufTy).Contents (Elt F) → (⟨S1700000x1, .i32⟩ : BufTy).Contents (Elt F)),
    StableHlo.binary main_v65 main_v71 main_v72 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v73 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v72 main_v73 main_v74 (mulf : (⟨S1700000x64, .f32⟩ : BufTy).Contents (Elt F) → (⟨S1700000x64, .f32⟩ : BufTy).Contents (Elt F) → (⟨S1700000x64, .f32⟩ : BufTy).Contents (Elt F)),
    StableHlo.nullary main_cst_14 (constant S_ .f32 0x00000000#32),
    StableHlo.unary main_cst_14 main_v75 (broadcastInDim S100000x64 ![] bcast_S_S100000x64 : (⟨S_, .f32⟩ : BufTy).Contents (Elt F) → (⟨S100000x64, .f32⟩ : BufTy).Contents (Elt F)),
    StableHlo.unary main_v6 main_v76 (broadcastInDim S1700000x1 ![0] bcast_S1700000_S1700000x1_0 : (⟨S1700000, .i32⟩ : BufTy).Contents (Elt F) → (⟨S1700000x1, .i32⟩ : BufTy).Contents (Elt F)),
    StableHlo.ternary main_v75 main_v76 main_v74 main_v77 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg8 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v79 main_v80 (addf : (⟨S100000x64, .f32⟩ : BufTy).Contents (Elt F) → (⟨S100000x64, .f32⟩ : BufTy).Contents (Elt F) → (⟨S100000x64, .f32⟩ : BufTy).Contents (Elt F)),
    StableHlo.nullary main_call3_cst (constant S_ .f32 0x00000000#32),
    StableHlo.unary main_call3_cst main_call3_v0 (broadcastInDim S100000x64 ![] bcast_S_S100000x64 : (⟨S_, .f32⟩ : BufTy).Contents (Elt F) → (⟨S100000x64, .f32⟩ : BufTy).Contents (Elt F)),
    StableHlo.binary main_v80 main_call3_v0 main_call3_v1 (cmpf .ogt : (⟨S100000x64, .f32⟩ : BufTy).Contents (Elt F) → (⟨S100000x64, .f32⟩ : BufTy).Contents (Elt F) → (⟨S100000x64, .i1⟩ : BufTy).Contents (Elt F)),
    StableHlo.nullary main_call3_cst_0 (constant S_ .f32 0x00000000#32),
    StableHlo.unary main_call3_cst_0 main_call3_v2 (broadcastInDim S100000x64 ![] bcast_S_S100000x64 : (⟨S_, .f32⟩ : BufTy).Contents (Elt F) → (⟨S100000x64, .f32⟩ : BufTy).Contents (Elt F)),
    StableHlo.binary main_v80 main_call3_v2 main_call3_v3 (cmpf .ogt : (⟨S100000x64, .f32⟩ : BufTy).Contents (Elt F) → (⟨S100000x64, .f32⟩ : BufTy).Contents (Elt F) → (⟨S100000x64, .i1⟩ : BufTy).Contents (Elt F)),
    StableHlo.nullary main_call3_cst_1 (constant S_ .f32 0x00000000#32),
    StableHlo.unary main_call3_cst_1 main_call3_call0_v0 (id : (⟨S_, .f32⟩ : BufTy).Contents (Elt F) → (⟨S_, .f32⟩ : BufTy).Contents (Elt F)),
    StableHlo.unary main_call3_call0_v0 main_call3_call0_v1 (broadcastInDim S100000x64 ![] bcast_S_S100000x64 : (⟨S_, .f32⟩ : BufTy).Contents (Elt F) → (⟨S100000x64, .f32⟩ : BufTy).Contents (Elt F)),
    StableHlo.ternary main_call3_v3 main_call3_call0_v1 main_v80 main_call3_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.unary main_call3_v4 main_call3_v5 (Host.expm1 : (⟨S100000x64, .f32⟩ : BufTy).Contents (Elt F) → (⟨S100000x64, .f32⟩ : BufTy).Contents (Elt F)),
    StableHlo.nullary main_call3_cst_2 (constant S_ .f32 0x3F800000#32),
    StableHlo.unary main_call3_cst_2 main_call3_v6 (broadcastInDim S100000x64 ![] bcast_S_S100000x64 : (⟨S_, .f32⟩ : BufTy).Contents (Elt F) → (⟨S100000x64, .f32⟩ : BufTy).Contents (Elt F)),
    StableHlo.binary main_call3_v6 main_call3_v5 main_call3_v7 (mulf : (⟨S100000x64, .f32⟩ : BufTy).Contents (Elt F) → (⟨S100000x64, .f32⟩ : BufTy).Contents (Elt F) → (⟨S100000x64, .f32⟩ : BufTy).Contents (Elt F)),
    StableHlo.ternary main_call3_v1 main_v80 main_call3_v7 main_v81 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v81 main_arg9 main_v82 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_15 (constantI S_ 32 0#32),
    StableHlo.unary main_c_15 main_v83 (broadcastInDim S1700000 ![] bcast_S_S1700000 : (⟨S_, .i32⟩ : BufTy).Contents (Elt F) → (⟨S1700000, .i32⟩ : BufTy).Contents (Elt F)),
    StableHlo.binary main_v3 main_v83 main_v84 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v85 (broadcastInDim S1700000 ![] bcast_S_S1700000 : (⟨S_, .i32⟩ : BufTy).Contents (Elt F) → (⟨S1700000, .i32⟩ : BufTy).Contents (Elt F)),
    StableHlo.binary main_v3 main_v85 main_v86 (addi : (⟨S1700000, .i32⟩ : BufTy).Contents (Elt F) → (⟨S1700000, .i32⟩ : BufTy).Contents (Elt F) → (⟨S1700000, .i32⟩ : BufTy).Contents (Elt F)),
    StableHlo.ternary main_v84 main_v86 main_v3 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v87 main_v88 (broadcastInDim S1700000x1 ![0] bcast_S1700000_S1700000x1_0 : (⟨S1700000, .i32⟩ : BufTy).Contents (Elt F) → (⟨S1700000x1, .i32⟩ : BufTy).Contents (Elt F)),
    StableHlo.binary main_v82 main_v88 main_v89 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v90 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v89 main_v90 main_v91 (mulf : (⟨S1700000x64, .f32⟩ : BufTy).Contents (Elt F) → (⟨S1700000x64, .f32⟩ : BufTy).Contents (Elt F) → (⟨S1700000x64, .f32⟩ : BufTy).Contents (Elt F)),
    StableHlo.nullary main_cst_17 (constant S_ .f32 0x00000000#32),
    StableHlo.unary main_cst_17 main_v92 (broadcastInDim S100000x64 ![] bcast_S_S100000x64 : (⟨S_, .f32⟩ : BufTy).Contents (Elt F) → (⟨S100000x64, .f32⟩ : BufTy).Contents (Elt F)),
    StableHlo.unary main_v6 main_v93 (broadcastInDim S1700000x1 ![0] bcast_S1700000_S1700000x1_0 : (⟨S1700000, .i32⟩ : BufTy).Contents (Elt F) → (⟨S1700000x1, .i32⟩ : BufTy).Contents (Elt F)),
    StableHlo.ternary main_v92 main_v93 main_v91 main_v94 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg10 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v94 main_v96 main_v97 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 4000000 in
theorem ops1_fresh : ∀ op ∈ (ops1 : List (HloOp τ sig (Elt F))), op.fresh = ∅ := by
  intro _ h; (repeat (cases h with | head => rfl | tail _ h => ?_)); exact nomatch h

/-! ## What the window leaves in the result buffer

From any contents `V` of the device's buffers in which the sources `s`, the targets `d`, the column of the edge
weights `n` and the second layer's matrix product `h · w` stand in the buffers the first window left them in:
the result buffer ends at the three remaining layers applied to them, and every argument is unchanged. The
composed term is read off the list operation by operation and agrees with the specification's once its small
definitions unfold; the gathers, scatters, products and shape operations stay folded. -/

section Values
variable (V : Valuation τ sig (Elt Ideal))

attribute [local irreducible] Host.scatterAdd Host.gather concatenate extractStridedSlice shapeCast iotaInDim broadcastInDim

set_option maxRecDepth 8192 in
set_option maxHeartbeats 8000000 in
/-- Layers two, three and four. -/
theorem b_v97 (s d : EIdx) (n : ENorm) (h : Mat) (w : Wt)
    (h3 : V (Proc.devRef .tc main_v3) = s) (h6 : V (Proc.devRef .tc main_v6) = d)
    (h30 : V (Proc.devRef .tc main_v30) = broadcastInDim S1700000x1 ![0] bcast_S1700000_S1700000x1_0 n)
    (h48 : V (Proc.devRef .tc main_v48) = lin h w) :
    after (ops1 (F := Ideal)) V (Proc.devRef .tc main_v97)
      = conv s d n (elu (conv s d n (elu (conv s d n h w (V (Proc.devRef .tc main_arg6))))
          (V (Proc.devRef .tc main_arg7)) (V (Proc.devRef .tc main_arg8))))
          (V (Proc.devRef .tc main_arg9)) (V (Proc.devRef .tc main_arg10)) := by
  after_results_simp
  rw [h3, h6, h30, h48]
  rfl

set_option maxRecDepth 8192 in
set_option maxHeartbeats 4000000 in
/-- No operation of this window writes argument 0: it keeps its contents. -/
theorem b_arg0 : after (ops1 (F := Ideal)) V (Proc.devRef .tc main_arg0) = V (Proc.devRef .tc main_arg0) := by
  after_results_simp

set_option maxRecDepth 8192 in
set_option maxHeartbeats 4000000 in
/-- No operation of this window writes argument 1: it keeps its contents. -/
theorem b_arg1 : after (ops1 (F := Ideal)) V (Proc.devRef .tc main_arg1) = V (Proc.devRef .tc main_arg1) := by
  after_results_simp

set_option maxRecDepth 8192 in
set_option maxHeartbeats 4000000 in
/-- No operation of this window writes argument 2: it keeps its contents. -/
theorem b_arg2 : after (ops1 (F := Ideal)) V (Proc.devRef .tc main_arg2) = V (Proc.devRef .tc main_arg2) := by
  after_results_simp

set_option maxRecDepth 8192 in
set_option maxHeartbeats 4000000 in
/-- No operation of this window writes argument 3: it keeps its contents. -/
theorem b_arg3 : after (ops1 (F := Ideal)) V (Proc.devRef .tc main_arg3) = V (Proc.devRef .tc main_arg3) := by
  after_results_simp

set_option maxRecDepth 8192 in
set_option maxHeartbeats 4000000 in
/-- No operation of this window writes argument 4: it keeps its contents. -/
theorem b_arg4 : after (ops1 (F := Ideal)) V (Proc.devRef .tc main_arg4) = V (Proc.devRef .tc main_arg4) := by
  after_results_simp

set_option maxRecDepth 8192 in
set_option maxHeartbeats 4000000 in
/-- No operation of this window writes argument 5: it keeps its contents. -/
theorem b_arg5 : after (ops1 (F := Ideal)) V (Proc.devRef .tc main_arg5) = V (Proc.devRef .tc main_arg5) := by
  after_results_simp

set_option maxRecDepth 8192 in
set_option maxHeartbeats 4000000 in
/-- No operation of this window writes argument 6: it keeps its contents. -/
theorem b_arg6 : after (ops1 (F := Ideal)) V (Proc.devRef .tc main_arg6) = V (Proc.devRef .tc main_arg6) := by
  after_results_simp

set_option maxRecDepth 8192 in
set_option maxHeartbeats 4000000 in
/-- No operation of this window writes argument 7: it keeps its contents. -/
theorem b_arg7 : after (ops1 (F := Ideal)) V (Proc.devRef .tc main_arg7) = V (Proc.devRef .tc main_arg7) := by
  after_results_simp

set_option maxRecDepth 8192 in
set_option maxHeartbeats 4000000 in
/-- No operation of this window writes argument 8: it keeps its contents. -/
theorem b_arg8 : after (ops1 (F := Ideal)) V (Proc.devRef .tc main_arg8) = V (Proc.devRef .tc main_arg8) := by
  after_results_simp

set_option maxRecDepth 8192 in
set_option maxHeartbeats 4000000 in
/-- No operation of this window writes argument 9: it keeps its contents. -/
theorem b_arg9 : after (ops1 (F := Ideal)) V (Proc.devRef .tc main_arg9) = V (Proc.devRef .tc main_arg9) := by
  after_results_simp

set_option maxRecDepth 8192 in
set_option maxHeartbeats 4000000 in
/-- No operation of this window writes argument 10: it keeps its contents. -/
theorem b_arg10 : after (ops1 (F := Ideal)) V (Proc.devRef .tc main_arg10) = V (Proc.devRef .tc main_arg10) := by
  after_results_simp

end Values

end Cert.Gcn.RefRun

end
-- ==== Proof.RefRun.lean ====
/-
  The run of the reference program, ending at the specification's function.

  The reference's @main is two windows of host operations run one after the other; with the calls of its outlined
  functions replaced by the callees' operations it is one straight line of 162 operations (the first window's 76,
  the second's 86). Every weakly fair execution of it terminates; the result buffer then holds the specification's
  `out` of the arguments' launch contents, and every argument is unchanged. The first window leaves the edge
  endpoints, the edge weights and the second layer's matrix product where the second window reads them; the second
  window applies the remaining three layers.
-/
import proofs.«160761_j24318104830697_1_alg».proof.Proof.Spec
import proofs.«160761_j24318104830697_1_alg».proof.Proof.Gen.ReferenceIdeal
import Idealize.ShloMosaic.Lib.StableHlo.Run
import proofs.«160761_j24318104830697_1_alg».proof.Proof.RefRunA
import proofs.«160761_j24318104830697_1_alg».proof.Proof.RefRunB

noncomputable section

namespace Cert.Gcn.RefRun

open Idealize.ShloMosaic Idealize.ShloMosaic.TcCoe Idealize.SL.Sem Idealize.ShloMosaic.StableHlo Cert.ReferenceIdeal
open Cert.ReferenceIdeal.Facts₀

variable {F : FTy → Type} [FloatOps F]

/-- @main's 162 operations, in order: the two windows'. -/
abbrev ops : List (HloOp τ sig (Elt F)) := ops0 ++ ops1

/-- @main is that straight line: each window is its own list, and two lines run in turn are their concatenation. -/
theorem main_eq (c : Dev nD) : main (F := F) c = seq ops := by
  rw [show (ops : List (HloOp τ sig (Elt F))) = ops0 ++ ops1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

/-- Every operation determines its result. -/
theorem ops_fresh : ∀ op ∈ (ops : List (HloOp τ sig (Elt F))), op.fresh = ∅ := fun op h => by
  rcases List.mem_append.mp h with h | h
  exacts [ops0_fresh op h, ops1_fresh op h]

/-- The contents after two lines in a row: the second's from the first's. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

section Values
variable (V : Valuation τ sig (Elt Ideal))

/-- The line's contents are the second window's from the first window's. -/
theorem after_ops : after (ops (F := Ideal)) V = after ops1 (after ops0 V) := after_two ops0 ops1 V

/-- The result buffer ends at the specification's function of the arguments' contents. -/
theorem out_eq : after (ops (F := Ideal)) V (Proc.devRef .tc main_v97)
    = out (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops, b_v97 (after ops0 V) _ _ _ _ _ (a_v3 V) (a_v6 V) (a_v30 V) (a_v48 V),
    a_arg6, a_arg7, a_arg8, a_arg9, a_arg10]
  rfl

/-- Argument 0 is unchanged. -/
theorem arg0_eq : after (ops (F := Ideal)) V (Proc.devRef .tc main_arg0) = V (Proc.devRef .tc main_arg0) := by
  rw [after_ops, b_arg0, a_arg0]

/-- Argument 1 is unchanged. -/
theorem arg1_eq : after (ops (F := Ideal)) V (Proc.devRef .tc main_arg1) = V (Proc.devRef .tc main_arg1) := by
  rw [after_ops, b_arg1, a_arg1]

/-- Argument 2 is unchanged. -/
theorem arg2_eq : after (ops (F := Ideal)) V (Proc.devRef .tc main_arg2) = V (Proc.devRef .tc main_arg2) := by
  rw [after_ops, b_arg2, a_arg2]

/-- Argument 3 is unchanged. -/
theorem arg3_eq : after (ops (F := Ideal)) V (Proc.devRef .tc main_arg3) = V (Proc.devRef .tc main_arg3) := by
  rw [after_ops, b_arg3, a_arg3]

/-- Argument 4 is unchanged. -/
theorem arg4_eq : after (ops (F := Ideal)) V (Proc.devRef .tc main_arg4) = V (Proc.devRef .tc main_arg4) := by
  rw [after_ops, b_arg4, a_arg4]

/-- Argument 5 is unchanged. -/
theorem arg5_eq : after (ops (F := Ideal)) V (Proc.devRef .tc main_arg5) = V (Proc.devRef .tc main_arg5) := by
  rw [after_ops, b_arg5, a_arg5]

/-- Argument 6 is unchanged. -/
theorem arg6_eq : after (ops (F := Ideal)) V (Proc.devRef .tc main_arg6) = V (Proc.devRef .tc main_arg6) := by
  rw [after_ops, b_arg6, a_arg6]

/-- Argument 7 is unchanged. -/
theorem arg7_eq : after (ops (F := Ideal)) V (Proc.devRef .tc main_arg7) = V (Proc.devRef .tc main_arg7) := by
  rw [after_ops, b_arg7, a_arg7]

/-- Argument 8 is unchanged. -/
theorem arg8_eq : after (ops (F := Ideal)) V (Proc.devRef .tc main_arg8) = V (Proc.devRef .tc main_arg8) := by
  rw [after_ops, b_arg8, a_arg8]

/-- Argument 9 is unchanged. -/
theorem arg9_eq : after (ops (F := Ideal)) V (Proc.devRef .tc main_arg9) = V (Proc.devRef .tc main_arg9) := by
  rw [after_ops, b_arg9, a_arg9]

/-- Argument 10 is unchanged. -/
theorem arg10_eq : after (ops (F := Ideal)) V (Proc.devRef .tc main_arg10) = V (Proc.devRef .tc main_arg10) := by
  rw [after_ops, b_arg10, a_arg10]

end Values

/-- On every device, from any memory with zero counters: every weakly fair execution of the reference's @main
    terminates with the result buffer at the specification's `out` of the arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v97)
          = Cert.Gcn.out (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v97).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_seq scopedRefs_eq scopedSems_eq defs main (fun _ => ops) main_eq (fun _ => ops_sub) m ρ (fun _ => ops_fresh))

end Cert.Gcn.RefRun

end
-- ==== Proof.lean ====
/-
  Four graph-convolution layers (100000 nodes, 64 features, 1700000 edges with the self loops): the kernel program
  computes each layer's matrix product and its bias and activation in tiled kernel regions (ten blocks of 10000 rows)
  and everything else on the host; the reference computes all of it on the host. On the extended reals the two end
  with the same result array:

  * a block of the tiled product is the whole product's block, entry by entry the same sum over the 64 contraction
    positions (the cast to a shorter float format before the product is the identity on the extended reals);
  * the tiled activation writes v where v > 0 and e^v − 1 elsewhere, for v = a + b; the reference writes v where v > 0
    and 1 · expm1(t) elsewhere, with t = v wherever v > 0 fails: the same number, since expm1 t = e^t − 1 and 1 · y = y;
  * the edge endpoints, the edge weights and each layer's gather · scale · scatter-add are the same host operations in
    both programs and are never opened.

  No law used needs the inputs to be finite, so the precondition is never opened. The kernel's frames are the generated
  ones; the reference's frame is its run with the result dropped; the idealization rewrote nothing, so `preserves` is
  trivial.
-/
import proofs.«160761_j24318104830697_1_alg».proof.Defs
import proofs.«160761_j24318104830697_1_alg».proof.Proof.Gen.Kernel
import proofs.«160761_j24318104830697_1_alg».proof.Proof.Gen.Kernel.Frame
import proofs.«160761_j24318104830697_1_alg».proof.Proof.Gen.KernelIdeal
import proofs.«160761_j24318104830697_1_alg».proof.Proof.Gen.KernelIdeal.Frame
import proofs.«160761_j24318104830697_1_alg».proof.Proof.Gen.ReferenceIdeal
import proofs.«160761_j24318104830697_1_alg».proof.Proof.Gen.Pre_finite_inputs
import proofs.«160761_j24318104830697_1_alg».proof.Proof.KernelRun
import proofs.«160761_j24318104830697_1_alg».proof.Proof.KernelChain
import proofs.«160761_j24318104830697_1_alg».proof.Proof.Region0
import proofs.«160761_j24318104830697_1_alg».proof.Proof.Region1
import proofs.«160761_j24318104830697_1_alg».proof.Proof.Region2
import proofs.«160761_j24318104830697_1_alg».proof.Proof.Region3
import proofs.«160761_j24318104830697_1_alg».proof.Proof.Region4
import proofs.«160761_j24318104830697_1_alg».proof.Proof.Region5
import proofs.«160761_j24318104830697_1_alg».proof.Proof.Region6
import proofs.«160761_j24318104830697_1_alg».proof.Proof.Region7
import proofs.«160761_j24318104830697_1_alg».proof.Proof.RefRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Gcn.RefRun.run m ρ)

theorem preserves : Cert.preserves_Kernel_KernelIdeal := trivial

/-- What the eight regions leave: products, activations and the last bias. -/
theorem regionValues : Cert.Gcn.KChain.RegionValues :=
  ⟨Cert.Gcn.Regions.lin0, Cert.Gcn.Regions.act1, Cert.Gcn.Regions.lin2, Cert.Gcn.Regions.act3,
   Cert.Gcn.Regions.lin4, Cert.Gcn.Regions.act5, Cert.Gcn.Regions.lin6, Cert.Gcn.Regions.bias7⟩

/-- Both programs end with the network of the specification at the (shared) argument arrays. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Gcn.KChain.value m ρ c regionValues), (h c).2⟩)
      (Cert.Gcn.KRun.run_value (F := Ideal) m ρ)
  · refine (θ_run Cert.ReferenceIdeal.defs _ _).mono (fun r h c => ⟨(h c).1.trans ?_, (h c).2⟩) (Cert.Gcn.RefRun.run m' ρ')
    obtain ⟨h0, h1, h2, h3, h4, h5, h6, h7, h8, h9, h10⟩ := hagree c
    rw [h0, h1, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
   frame_kernel, frame_kernelIdeal, frame_referenceIdeal, preserves, algebraic⟩

end Cert.Proof

end
